-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x75 : Shape := ⟨2, ![50000, 75]⟩
abbrev S500000x14 : Shape := ⟨2, ![500000, 14]⟩
abbrev S500000 : Shape := ⟨1, ![500000]⟩
abbrev S500000x2 : Shape := ⟨2, ![500000, 2]⟩
abbrev S75x100 : Shape := ⟨2, ![75, 100]⟩
abbrev S100 : Shape := ⟨1, ![100]⟩
abbrev S14x50 : Shape := ⟨2, ![14, 50]⟩
abbrev S50 : Shape := ⟨1, ![50]⟩
abbrev S150x50 : Shape := ⟨2, ![150, 50]⟩
abbrev S100x50 : Shape := ⟨2, ![100, 50]⟩
abbrev S_ : Shape := ⟨0, ![]⟩

class Facts : Prop where
  bcast_S_S50000x75 : S_.BroadcastsInDim S50000x75 (![] : Fin 0 → Fin S50000x75.rank)
  reducesTo_S50000x75_S_d0_1 : S50000x75.ReducesTo [0, 1] S_
  h_S_ : 0 < S_.numel
  bcast_S_S500000x14 : S_.BroadcastsInDim S500000x14 (![] : Fin 0 → Fin S500000x14.rank)
  reducesTo_S500000x14_S_d0_1 : S500000x14.ReducesTo [0, 1] S_
  bcast_S_S75x100 : S_.BroadcastsInDim S75x100 (![] : Fin 0 → Fin S75x100.rank)
  reducesTo_S75x100_S_d0_1 : S75x100.ReducesTo [0, 1] S_
  bcast_S_S100 : S_.BroadcastsInDim S100 (![] : Fin 0 → Fin S100.rank)
  reducesTo_S100_S_d0 : S100.ReducesTo [0] S_
  bcast_S_S14x50 : S_.BroadcastsInDim S14x50 (![] : Fin 0 → Fin S14x50.rank)
  reducesTo_S14x50_S_d0_1 : S14x50.ReducesTo [0, 1] S_
  bcast_S_S50 : S_.BroadcastsInDim S50 (![] : Fin 0 → Fin S50.rank)
  reducesTo_S50_S_d0 : S50.ReducesTo [0] S_
  bcast_S_S150x50 : S_.BroadcastsInDim S150x50 (![] : Fin 0 → Fin S150x50.rank)
  reducesTo_S150x50_S_d0_1 : S150x50.ReducesTo [0, 1] S_
  bcast_S_S100x50 : S_.BroadcastsInDim S100x50 (![] : Fin 0 → Fin S100x50.rank)
  reducesTo_S100x50_S_d0_1 : S100x50.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S50 .f32) (main_arg14 : FVec F S100x50 .f32) (main_arg15 : FVec F S50 .f32) (main_v48 : IVec S_ 1) (main_v49 : FVec F S14x50 .f32) (main_v50 : FVec F S14x50 .f32) : IVec S_ 1 :=
  let main_v51 : IVec S14x50 1 := cmpf .olt main_v49 main_v50
  let main_c_19 : IVec S_ 1 := constantI S_ 1 1#1
  let main_v52 : IVec S_ 1 := (fun x v => Host.reduce IntOp.andi x v reducesTo_S14x50_S_d0_1 h_S_) main_v51 main_c_19
  let main_v53 : IVec S_ 1 := andi main_v48 main_v52
  let main_v54 : FVec F S50 .f32 := Host.absf main_arg13
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_v59 : FVec F S100x50 .f32 := Host.absf main_arg14
  let main_cst_22 : FVec F S_ .f32 := constant S_ .f32 0x7F800000#32
  let main_v60 : FVec F S100x50 .f32 := broadcastInDim S100x50 ![] bcast_S_S100x50 main_cst_22
  let main_v61 : IVec S100x50 1 := cmpf .olt main_v59 main_v60
  let main_c_23 : IVec S_ 1 := constantI S_ 1 1#1
  let main_v62 : IVec S_ 1 := (fun x v => Host.reduce IntOp.andi x v reducesTo_S100x50_S_d0_1 h_S_) main_v61 main_c_23
  let main_v63 : IVec S_ 1 := andi main_v58 main_v62
  let main_v64 : FVec F S50 .f32 := Host.absf main_arg15
  let main_cst_24 : FVec F S_ .f32 := constant S_ .f32 0x7F800000#32
  let main_v65 : FVec F S50 .f32 := broadcastInDim S50 ![] bcast_S_S50 main_cst_24
  let main_v66 : IVec S50 1 := cmpf .olt main_v64 main_v65
  let main_c_25 : IVec S_ 1 := constantI S_ 1 1#1
  let main_v67 : IVec S_ 1 := (fun x v => Host.reduce IntOp.andi x v reducesTo_S50_S_d0 h_S_) main_v66 main_c_25
  fn_part4 (F := F) main_v63 main_v67

def fn_part2 {F : FTy → Type} [FloatOps F] (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v33 : IVec S_ 1) : IVec S_ 1 :=
  let main_v34 : FVec F S50 .f32 := Host.absf main_arg9
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S150x50 .f32 := Host.absf main_arg10
  let main_cst_14 : FVec F S_ .f32 := constant S_ .f32 0x7F800000#32
  let main_v40 : FVec F S150x50 .f32 := broadcastInDim S150x50 ![] bcast_S_S150x50 main_cst_14
  let main_v41 : IVec S150x50 1 := cmpf .olt main_v39 main_v40
  let main_c_15 : IVec S_ 1 := constantI S_ 1 1#1
  let main_v42 : IVec S_ 1 := (fun x v => Host.reduce IntOp.andi x v reducesTo_S150x50_S_d0_1 h_S_) main_v41 main_c_15
  let main_v43 : IVec S_ 1 := andi main_v38 main_v42
  let main_v44 : FVec F S50 .f32 := Host.absf main_arg11
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S14x50 .f32 := Host.absf main_arg12
  let main_cst_18 : FVec F S_ .f32 := constant S_ .f32 0x7F800000#32
  let main_v50 : FVec F S14x50 .f32 := broadcastInDim S14x50 ![] bcast_S_S14x50 main_cst_18
  fn_part3 (F := F) main_arg13 main_arg14 main_arg15 main_v48 main_v49 main_v50

def fn_part1 {F : FTy → Type} [FloatOps F] (main_arg6 : FVec F S14x50 .f32) (main_arg7 : FVec F S50 .f32) (main_arg8 : FVec F S150x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S14x50 .f32 := Host.absf main_arg6
  let main_cst_6 : FVec F S_ .f32 := constant S_ .f32 0x7F800000#32
  let main_v20 : FVec F S14x50 .f32 := broadcastInDim S14x50 ![] bcast_S_S14x50 main_cst_6
  let main_v21 : IVec S14x50 1 := cmpf .olt main_v19 main_v20
  let main_c_7 : IVec S_ 1 := constantI S_ 1 1#1
  let main_v22 : IVec S_ 1 := (fun x v => Host.reduce IntOp.andi x v reducesTo_S14x50_S_d0_1 h_S_) main_v21 main_c_7
  let main_v23 : IVec S_ 1 := andi main_v18 main_v22
  let main_v24 : FVec F S50 .f32 := Host.absf main_arg7
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S150x50 .f32 := Host.absf main_arg8
  let main_cst_10 : FVec F S_ .f32 := constant S_ .f32 0x7F800000#32
  let main_v30 : FVec F S150x50 .f32 := broadcastInDim S150x50 ![] bcast_S_S150x50 main_cst_10
  let main_v31 : IVec S150x50 1 := cmpf .olt main_v29 main_v30
  let main_c_11 : IVec S_ 1 := constantI S_ 1 1#1
  let main_v32 : IVec S_ 1 := (fun x v => Host.reduce IntOp.andi x v reducesTo_S150x50_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x75 .f32) (main_arg1 : FVec F S500000x14 .f32) (main_arg2 : IVec S500000 32) (main_arg3 : IVec S500000x2 32) (main_arg4 : FVec F S75x100 .f32) (main_arg5 : FVec F S100 .f32) (main_arg6 : FVec F S14x50 .f32) (main_arg7 : FVec F S50 .f32) (main_arg8 : FVec F S150x50 .f32) (main_arg9 : FVec F S50 .f32) (main_arg10 : FVec F S150x50 .f32) (main_arg11 : FVec F S50 .f32) (main_arg12 : FVec F S14x50 .f32) (main_arg13 : FVec F S50 .f32) (main_arg14 : FVec F S100x50 .f32) (main_arg15 : FVec F S50 .f32) : IVec S_ 1 :=
  let main_v0 : FVec F S50000x75 .f32 := Host.absf main_arg0
  let main_cst : FVec F S_ .f32 := constant S_ .f32 0x7F800000#32
  let main_v1 : FVec F S50000x75 .f32 := broadcastInDim S50000x75 ![] bcast_S_S50000x75 main_cst
  let main_v2 : IVec S50000x75 1 := cmpf .olt main_v0 main_v1
  let main_c : IVec S_ 1 := constantI S_ 1 1#1
  let main_v3 : IVec S_ 1 := (fun x v => Host.reduce IntOp.andi x v reducesTo_S50000x75_S_d0_1 h_S_) main_v2 main_c
  let main_v4 : FVec F S500000x14 .f32 := Host.absf main_arg1
  let main_cst_0 : FVec F S_ .f32 := constant S_ .f32 0x7F800000#32
  let main_v5 : FVec F S500000x14 .f32 := broadcastInDim S500000x14 ![] bcast_S_S500000x14 main_cst_0
  let main_v6 : IVec S500000x14 1 := cmpf .olt main_v4 main_v5
  let main_c_1 : IVec S_ 1 := constantI S_ 1 1#1
  let main_v7 : IVec S_ 1 := (fun x v => Host.reduce IntOp.andi x v reducesTo_S500000x14_S_d0_1 h_S_) main_v6 main_c_1
  let main_v8 : IVec S_ 1 := andi main_v3 main_v7
  let main_v9 : FVec F S75x100 .f32 := Host.absf main_arg4
  let main_cst_2 : FVec F S_ .f32 := constant S_ .f32 0x7F800000#32
  let main_v10 : FVec F S75x100 .f32 := broadcastInDim S75x100 ![] bcast_S_S75x100 main_cst_2
  let main_v11 : IVec S75x100 1 := cmpf .olt main_v9 main_v10
  let main_c_3 : IVec S_ 1 := constantI S_ 1 1#1
  let main_v12 : IVec S_ 1 := (fun x v => Host.reduce IntOp.andi x v reducesTo_S75x100_S_d0_1 h_S_) main_v11 main_c_3
  let main_v13 : IVec S_ 1 := andi main_v8 main_v12
  let main_v14 : FVec F S100 .f32 := Host.absf main_arg5
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x75 : Shape := ⟨2, ![50000, 75]⟩
abbrev S500000x14 : Shape := ⟨2, ![500000, 14]⟩
abbrev S500000 : Shape := ⟨1, ![500000]⟩
abbrev S500000x2 : Shape := ⟨2, ![500000, 2]⟩
abbrev S75x100 : Shape := ⟨2, ![75, 100]⟩
abbrev S100 : Shape := ⟨1, ![100]⟩
abbrev S14x50 : Shape := ⟨2, ![14, 50]⟩
abbrev S50 : Shape := ⟨1, ![50]⟩
abbrev S150x50 : Shape := ⟨2, ![150, 50]⟩
abbrev S100x50 : Shape := ⟨2, ![100, 50]⟩
abbrev S500000x1 : Shape := ⟨2, ![500000, 1]⟩
abbrev S_ : Shape := ⟨0, ![]⟩
abbrev S500000x75 : Shape := ⟨2, ![500000, 75]⟩
abbrev S75x50 : Shape := ⟨2, ![75, 50]⟩
abbrev S50x50 : Shape := ⟨2, ![50, 50]⟩
abbrev S1x100 : Shape := ⟨2, ![1, 100]⟩
abbrev S1x50 : Shape := ⟨2, ![1, 50]⟩
abbrev S500000x50 : Shape := ⟨2, ![500000, 50]⟩
abbrev S10000x14 : Shape := ⟨2, ![10000, 14]⟩
abbrev S10000x50 : Shape := ⟨2, ![10000, 50]⟩
abbrev S50000x50 : Shape := ⟨2, ![50000, 50]⟩
abbrev S5000x75 : Shape := ⟨2, ![5000, 75]⟩
abbrev S5000x50 : Shape := ⟨2, ![5000, 50]⟩
abbrev S5000x100 : Shape := ⟨2, ![5000, 100]⟩
abbrev S5000x14 : Shape := ⟨2, ![5000, 14]⟩

abbrev nBuf : Space → Nat
  | .hbm => 57
  | .vmem => 33
  | .smem => 0
  | _ => 0

abbrev bufTy : (tb : Table) → Fin (tcTables nBuf tb) → BufTy
  | .hbm, ⟨0, _⟩ => ⟨S50000x75, .f32⟩
  | .hbm, ⟨1, _⟩ => ⟨S500000x14, .f32⟩
  | .hbm, ⟨2, _⟩ => ⟨S500000, .i32⟩
  | .hbm, ⟨3, _⟩ => ⟨S500000x2, .i32⟩
  | .hbm, ⟨4, _⟩ => ⟨S75x100, .f32⟩
  | .hbm, ⟨5, _⟩ => ⟨S100, .f32⟩
  | .hbm, ⟨6, _⟩ => ⟨S14x50, .f32⟩
  | .hbm, ⟨7, _⟩ => ⟨S50, .f32⟩
  | .hbm, ⟨8, _⟩ => ⟨S150x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S500000x1, .i32⟩
  | .hbm, ⟨17, _⟩ => ⟨S500000, .i32⟩
  | .hbm, ⟨18, _⟩ => ⟨S500000x1, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x75, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x75, .f32⟩
  | .hbm, ⟨38, _⟩ => ⟨S75x50, .f32⟩
  | .hbm, ⟨39, _⟩ => ⟨S75x50, .f32⟩
  | .hbm, ⟨40, _⟩ => ⟨S100x50, .f32⟩
  | .hbm, ⟨41, _⟩ => ⟨S50x50, .f32⟩
  | .hbm, ⟨42, _⟩ => ⟨S50x50, .f32⟩
  | .hbm, ⟨43, _⟩ => ⟨S50x50, .f32⟩
  | .hbm, ⟨44, _⟩ => ⟨S1x100, .f32⟩
  | .hbm, ⟨45, _⟩ => ⟨S1x50, .f32⟩
  | .hbm, ⟨46, _⟩ => ⟨S1x50, .f32⟩
  | .hbm, ⟨47, _⟩ => ⟨S1x50, .f32⟩
  | .hbm, ⟨48, _⟩ => ⟨S1x50, .f32⟩
  | .hbm, ⟨49, _⟩ => ⟨S1x50, .f32⟩
  | .hbm, ⟨50, _⟩ => ⟨S500000x50, .f32⟩
  | .hbm, ⟨51, _⟩ => ⟨S_, .f32⟩
  | .hbm, ⟨52, _⟩ => ⟨S50000x50, .f32⟩
  | .hbm, ⟨53, _⟩ => ⟨S500000x1, .i32⟩
  | .hbm, ⟨54, _⟩ => ⟨S50000x50, .f32⟩
  | .hbm, ⟨55, _⟩ => ⟨S50000x50, .f32⟩
  | .hbm, ⟨56, _⟩ => ⟨S500000x50, .f32⟩
  | .local _ .vmem, ⟨0, _⟩ => ⟨S10000x14, .f32⟩
  | .local _ .vmem, ⟨1, _⟩ => ⟨S10000x14, .f32⟩
  | .local _ .vmem, ⟨2, _⟩ => ⟨S14x50, .f32⟩
  | .local _ .vmem, ⟨3, _⟩ => ⟨S1x50, .f32⟩
  | .local _ .vmem, ⟨4, _⟩ => ⟨S10000x50, .f32⟩
  | .local _ .vmem, ⟨5, _⟩ => ⟨S10000x50, .f32⟩
  | .local _ .vmem, ⟨6, _⟩ => ⟨S5000x75, .f32⟩
  | .local _ .vmem, ⟨7, _⟩ => ⟨S5000x75, .f32⟩
  | .local _ .vmem, ⟨8, _⟩ => ⟨S5000x50, .f32⟩
  | .local _ .vmem, ⟨9, _⟩ => ⟨S5000x50, .f32⟩
  | .local _ .vmem, ⟨10, _⟩ => ⟨S75x100, .f32⟩
  | .local _ .vmem, ⟨11, _⟩ => ⟨S1x100, .f32⟩
  | .local _ .vmem, ⟨12, _⟩ => ⟨S100x50, .f32⟩
  | .local _ .vmem, ⟨13, _⟩ => ⟨S50x50, .f32⟩
  | .local _ .vmem, ⟨14, _⟩ => ⟨S1x50, .f32⟩
  | .local _ .vmem, ⟨15, _⟩ => ⟨S5000x50, .f32⟩
  | .local _ .vmem, ⟨16, _⟩ => ⟨S5000x50, .f32⟩
  | .local _ .vmem, ⟨17, _⟩ => ⟨S5000x75, .f32⟩
  | .local _ .vmem, ⟨18, _⟩ => ⟨S5000x75, .f32⟩
  | .local _ .vmem, ⟨19, _⟩ => ⟨S5000x75, .f32⟩
  | .local _ .vmem, ⟨20, _⟩ => ⟨S5000x75, .f32⟩
  | .local _ .vmem, ⟨21, _⟩ => ⟨S5000x14, .f32⟩
  | .local _ .vmem, ⟨22, _⟩ => ⟨S5000x14, .f32⟩
  | .local _ .vmem, ⟨23, _⟩ => ⟨S75x50, .f32⟩
  | .local _ .vmem, ⟨24, _⟩ => ⟨S75x50, .f32⟩
  | .local _ .vmem, ⟨25, _⟩ => ⟨S1x50, .f32⟩
  | .local _ .vmem, ⟨26, _⟩ => ⟨S14x50, .f32⟩
  | .local _ .vmem, ⟨27, _⟩ => ⟨S1x50, .f32⟩
  | .local _ .vmem, ⟨28, _⟩ => ⟨S50x50, .f32⟩
  | .local _ .vmem, ⟨29, _⟩ => ⟨S50x50, .f32⟩
  | .local _ .vmem, ⟨30, _⟩ => ⟨S1x50, .f32⟩
  | .local _ .vmem, ⟨31, _⟩ => ⟨S5000x50, .f32⟩
  | .local _ .vmem, ⟨32, _⟩ => ⟨S5000x50, .f32⟩
  | _, _ => ⟨S50000x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg11_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem11_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x75 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S75x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S50x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x50 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x50 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x75 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x75 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x14 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S75x50 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S75x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x50 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S14x50 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x50 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S50x50 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S50x50 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x50 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x50 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  slices_S150x50_S75x50_0_0 : S150x50.Slices ![0, 0] S75x50
  slices_S150x50_S75x50_75_0 : S150x50.Slices ![75, 0] S75x50
  slices_S150x50_S100x50_0_0 : S150x50.Slices ![0, 0] S100x50
  slices_S150x50_S50x50_100_0 : S150x50.Slices ![100, 0] S50x50
  slices_S100x50_S50x50_0_0 : S100x50.Slices ![0, 0] S50x50
  slices_S100x50_S50x50_50_0 : S100x50.Slices ![50, 0] S50x50
  shapeCasts_S100_S1x100 : S100.ShapeCasts S1x100
  shapeCasts_S50_S1x50 : S50.ShapeCasts S1x50
  inb_S10000x14_S10000x14_0_0 : ∀ a, (![0, 0] : Fin 2 → Nat) a + S10000x14.size a ≤ S10000x14.size a
  h_S10000x14 : 0 < S10000x14.numel
  bitsLt_bf16_f32 : FTy.bits .bf16 < FTy.bits .f32
  inb_S14x50_S14x50_0_0 : ∀ a, (![0, 0] : Fin 2 → Nat) a + S14x50.size a ≤ S14x50.size a
  h_S14x50 : 0 < S14x50.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  bcast_S_S50000x50 : S_.BroadcastsInDim S50000x50 (![] : Fin 0 → Fin S50000x50.rank)
  inb_S5000x75_S5000x75_0_0 : ∀ a, (![0, 0] : Fin 2 → Nat) a + S5000x75.size a ≤ S5000x75.size a
  h_S5000x75 : 0 < S5000x75.numel
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  inb_S75x100_S75x100_0_0 : ∀ a, (![0, 0] : Fin 2 → Nat) a + S75x100.size a ≤ S75x100.size a
  h_S75x100 : 0 < S75x100.numel
  inb_S100x50_S100x50_0_0 : ∀ a, (![0, 0] : Fin 2 → Nat) a + S100x50.size a ≤ S100x50.size a
  h_S100x50 : 0 < S100x50.numel
  shapeCasts_S100x50_S100x50 : S100x50.ShapeCasts S100x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  broadcasts_S1x50_S5000x50 : S1x50.Broadcasts S5000x50
  shapeCasts_S5000x75_S5000x75 : S5000x75.ShapeCasts S5000x75
  inb_S5000x14_S5000x14_0_0 : ∀ a, (![0, 0] : Fin 2 → Nat) a + S5000x14.size a ≤ S5000x14.size a
  h_S5000x14 : 0 < S5000x14.numel
  inb_S75x50_S75x50_0_0 : ∀ a, (![0, 0] : Fin 2 → Nat) a + S75x50.size a ≤ S75x50.size a
  h_S75x50 : 0 < S75x50.numel
  shapeCasts_S75x50_S75x50 : S75x50.ShapeCasts S75x50
  gather_S50000x75_S500000x1_S500000x75_1_0_n_n_0_1_175_wf : GatherDims.WF S50000x75 S500000x1 S500000x75 [1] [0] [] [0] [] 1 ![1, 75]
  dot_S10000x14_S14x50_S10000x50_1_0_0_1_n_n_wf : DotDims.WF S10000x14 S14x50 S10000x50 [1] [0] [0] [1] [] []
  scatter_S50000x50_S500000x1_S500000x50_1_0_0_1_wf : ScatterDims.WF S50000x50 S500000x1 S500000x50 [1] [0] [0] 1
  dot_S5000x75_S75x100_S5000x100_1_0_0_1_n_n_wf : DotDims.WF S5000x75 S75x100 S5000x100 [1] [0] [0] [1] [] []
  dot_S5000x100_S100x50_S5000x50_1_0_0_1_n_n_wf : DotDims.WF S5000x100 S100x50 S5000x50 [1] [0] [0] [1] [] []
  dot_S5000x50_S50x50_S5000x50_1_0_0_1_n_n_wf : DotDims.WF S5000x50 S50x50 S5000x50 [1] [0] [0] [1] [] []
  dot_S5000x75_S75x50_S5000x50_1_0_0_1_n_n_wf : DotDims.WF S5000x75 S75x50 S5000x50 [1] [0] [0] [1] [] []
  dot_S5000x14_S14x50_S5000x50_1_0_0_1_n_n_wf : DotDims.WF S5000x14 S14x50 S5000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S500000x14.size a
  hwx0_0 : ∀ i : grid0.Coords, EltTy.bits .f32 = 32 ∨ (Rect.block (s := S500000x14) S10000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x50.size a ≤ S14x50.size a
  hwx0_1 : ∀ i : grid0.Coords, EltTy.bits .f32 = 32 ∨ (Rect.block (s := S14x50) S14x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x50.size a ≤ S500000x50.size a
  hwx0_3 : ∀ i : grid0.Coords, EltTy.bits .f32 = 32 ∨ (Rect.block (s := S500000x50) S10000x50.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x75.size a ≤ S50000x75.size a
  hwx1_0 : ∀ i : grid1.Coords, EltTy.bits .f32 = 32 ∨ (Rect.block (s := S50000x75) S5000x75.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x50.size a ≤ S50000x50.size a
  hwx1_1 : ∀ i : grid1.Coords, EltTy.bits .f32 = 32 ∨ (Rect.block (s := S50000x50) S5000x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S75x100.size a ≤ S75x100.size a
  hwx1_2 : ∀ i : grid1.Coords, EltTy.bits .f32 = 32 ∨ (Rect.block (s := S75x100) S75x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x50.size a ≤ S100x50.size a
  hwx1_4 : ∀ i : grid1.Coords, EltTy.bits .f32 = 32 ∨ (Rect.block (s := S100x50) S100x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S50x50.size a ≤ S50x50.size a
  hwx1_5 : ∀ i : grid1.Coords, EltTy.bits .f32 = 32 ∨ (Rect.block (s := S50x50) S50x50.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x50.size a ≤ S1x50.size a
  hwx1_6 : ∀ i : grid1.Coords, EltTy.bits .f32 = 32 ∨ (Rect.block (s := S1x50) S1x50.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x50.size a ≤ S50000x50.size a
  hwx1_7 : ∀ i : grid1.Coords, EltTy.bits .f32 = 32 ∨ (Rect.block (s := S50000x50) S5000x50.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x75.size a ≤ S500000x75.size a
  hwx2_0 : ∀ i : grid2.Coords, EltTy.bits .f32 = 32 ∨ (Rect.block (s := S500000x75) S5000x75.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x75.size a ≤ S500000x75.size a
  hwx2_1 : ∀ i : grid2.Coords, EltTy.bits .f32 = 32 ∨ (Rect.block (s := S500000x75) S5000x75.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x14.size a ≤ S500000x14.size a
  hwx2_2 : ∀ i : grid2.Coords, EltTy.bits .f32 = 32 ∨ (Rect.block (s := S500000x14) S5000x14.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S75x50.size a ≤ S75x50.size a
  hwx2_3 : ∀ i : grid2.Coords, EltTy.bits .f32 = 32 ∨ (Rect.block (s := S75x50) S75x50.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S75x50.size a ≤ S75x50.size a
  hwx2_4 : ∀ i : grid2.Coords, EltTy.bits .f32 = 32 ∨ (Rect.block (s := S75x50) S75x50.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x50.size a ≤ S1x50.size a
  hwx2_5 : ∀ i : grid2.Coords, EltTy.bits .f32 = 32 ∨ (Rect.block (s := S1x50) S1x50.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S14x50.size a ≤ S14x50.size a
  hwx2_6 : ∀ i : grid2.Coords, EltTy.bits .f32 = 32 ∨ (Rect.block (s := S14x50) S14x50.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x50.size a ≤ S1x50.size a
  hwx2_7 : ∀ i : grid2.Coords, EltTy.bits .f32 = 32 ∨ (Rect.block (s := S1x50) S1x50.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S50x50.size a ≤ S50x50.size a
  hwx2_8 : ∀ i : grid2.Coords, EltTy.bits .f32 = 32 ∨ (Rect.block (s := S50x50) S50x50.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S50x50.size a ≤ S50x50.size a
  hwx2_9 : ∀ i : grid2.Coords, EltTy.bits .f32 = 32 ∨ (Rect.block (s := S50x50) S50x50.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x50.size a ≤ S1x50.size a
  hwx2_10 : ∀ i : grid2.Coords, EltTy.bits .f32 = 32 ∨ (Rect.block (s := S1x50) S1x50.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x50.size a ≤ S500000x50.size a
  hwx2_11 : ∀ i : grid2.Coords, EltTy.bits .f32 = 32 ∨ (Rect.block (s := S500000x50) S5000x50.size (cc2_transform_11 i) (hinb2_11 i)).WholeWords (EltTy.packing .f32)

variable [Facts₀]

def gather_S50000x75_S500000x1_S500000x75_1_0_n_n_0_1_175 : GatherDims S50000x75 S500000x1 S500000x75 where
  offsetDims := [1]
  collapsedSliceDims := [0]
  operandBatchingDims := []
  startIndicesBatchingDims := []
  startIndexMap := [0]
  indexVectorDim := 1
  sliceSizes := ![1, 75]
  wf := gather_S50000x75_S500000x1_S500000x75_1_0_n_n_0_1_175_wf
def dot_S10000x14_S14x50_S10000x50_1_0_0_1_n_n : DotDims S10000x14 S14x50 S10000x50 where
  lhsContracting := [1]
  rhsContracting := [0]
  lhsNonContracting := [0]
  rhsNonContracting := [1]
  lhsBatch := []
  rhsBatch := []
  wf := dot_S10000x14_S14x50_S10000x50_1_0_0_1_n_n_wf
def scatter_S50000x50_S500000x1_S500000x50_1_0_0_1 : ScatterDims S50000x50 S500000x1 S500000x50 where
  updateWindowDims := [1]
  insertedWindowDims := [0]
  scatterDimsToOperandDims := [0]
  indexVectorDim := 1
  wf := scatter_S50000x50_S500000x1_S500000x50_1_0_0_1_wf
def dot_S5000x75_S75x100_S5000x100_1_0_0_1_n_n : DotDims S5000x75 S75x100 S5000x100 where
  lhsContracting := [1]
  rhsContracting := [0]
  lhsNonContracting := [0]
  rhsNonContracting := [1]
  lhsBatch := []
  rhsBatch := []
  wf := dot_S5000x75_S75x100_S5000x100_1_0_0_1_n_n_wf
def dot_S5000x100_S100x50_S5000x50_1_0_0_1_n_n : DotDims S5000x100 S100x50 S5000x50 where
  lhsContracting := [1]
  rhsContracting := [0]
  lhsNonContracting := [0]
  rhsNonContracting := [1]
  lhsBatch := []
  rhsBatch := []
  wf := dot_S5000x100_S100x50_S5000x50_1_0_0_1_n_n_wf
def dot_S5000x50_S50x50_S5000x50_1_0_0_1_n_n : DotDims S5000x50 S50x50 S5000x50 where
  lhsContracting := [1]
  rhsContracting := [0]
  lhsNonContracting := [0]
  rhsNonContracting := [1]
  lhsBatch := []
  rhsBatch := []
  wf := dot_S5000x50_S50x50_S5000x50_1_0_0_1_n_n_wf
def dot_S5000x75_S75x50_S5000x50_1_0_0_1_n_n : DotDims S5000x75 S75x50 S5000x50 where
  lhsContracting := [1]
  rhsContracting := [0]
  lhsNonContracting := [0]
  rhsNonContracting := [1]
  lhsBatch := []
  rhsBatch := []
  wf := dot_S5000x75_S75x50_S5000x50_1_0_0_1_n_n_wf
def dot_S5000x14_S14x50_S5000x50_1_0_0_1_n_n : DotDims S5000x14 S14x50 S5000x50 where
  lhsContracting := [1]
  rhsContracting := [0]
  lhsNonContracting := [0]
  rhsNonContracting := [1]
  lhsBatch := []
  rhsBatch := []
  wf := dot_S5000x14_S14x50_S5000x50_1_0_0_1_n_n_wf

abbrev win0_0 : Pipeline.Window sig grid0 :=
  Pipeline.Window.ofSpec (Memref.whole main_arg1) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S14x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S10000x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x75.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S75x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S100x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S50x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x50.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v10) S5000x75.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x75.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S5000x14.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S75x50.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S75x50.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x50.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S14x50.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S1x50.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v22) S50x50.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23) S50x50.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v29) S1x50.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v35) S5000x50.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x75 : Shape := ⟨2, ![50000, 75]⟩
abbrev S500000x14 : Shape := ⟨2, ![500000, 14]⟩
abbrev S500000 : Shape := ⟨1, ![500000]⟩
abbrev S500000x2 : Shape := ⟨2, ![500000, 2]⟩
abbrev S75x100 : Shape := ⟨2, ![75, 100]⟩
abbrev S100 : Shape := ⟨1, ![100]⟩
abbrev S14x50 : Shape := ⟨2, ![14, 50]⟩
abbrev S50 : Shape := ⟨1, ![50]⟩
abbrev S150x50 : Shape := ⟨2, ![150, 50]⟩
abbrev S100x50 : Shape := ⟨2, ![100, 50]⟩
abbrev S50000x100 : Shape := ⟨2, ![50000, 100]⟩
abbrev S1x100 : Shape := ⟨2, ![1, 100]⟩
abbrev S_ : Shape := ⟨0, ![]⟩
abbrev S500000x50 : Shape := ⟨2, ![500000, 50]⟩
abbrev S1x50 : Shape := ⟨2, ![1, 50]⟩
abbrev S50000x50 : Shape := ⟨2, ![50000, 50]⟩
abbrev S500000x1 : Shape := ⟨2, ![500000, 1]⟩
abbrev S50000x150 : Shape := ⟨2, ![50000, 150]⟩
abbrev S500000x2x1 : Shape := ⟨3, ![500000, 2, 1]⟩
abbrev S500000x2x75 : Shape := ⟨3, ![500000, 2, 75]⟩
abbrev S500000x150 : Shape := ⟨2, ![500000, 150]⟩
abbrev S500000x100 : Shape := ⟨2, ![500000, 100]⟩

abbrev nBuf : Space → Nat
  | .hbm => 93
  | .vmem => 0
  | .smem => 0
  | _ => 0

abbrev bufTy : (tb : Table) → Fin (tcTables nBuf tb) → BufTy
  | .hbm, ⟨0, _⟩ => ⟨S50000x75, .f32⟩
  | .hbm, ⟨1, _⟩ => ⟨S500000x14, .f32⟩
  | .hbm, ⟨2, _⟩ => ⟨S500000, .i32⟩
  | .hbm, ⟨3, _⟩ => ⟨S500000x2, .i32⟩
  | .hbm, ⟨4, _⟩ => ⟨S75x100, .f32⟩
  | .hbm, ⟨5, _⟩ => ⟨S100, .f32⟩
  | .hbm, ⟨6, _⟩ => ⟨S14x50, .f32⟩
  | .hbm, ⟨7, _⟩ => ⟨S50, .f32⟩
  | .hbm, ⟨8, _⟩ => ⟨S150x50, .f32⟩
  | .hbm, ⟨9, _⟩ => ⟨S50, .f32⟩
  | .hbm, ⟨10, _⟩ => ⟨S150x50, .f32⟩
  | .hbm, ⟨11, _⟩ => ⟨S50, .f32⟩
  | .hbm, ⟨12, _⟩ => ⟨S14x50, .f32⟩
  | .hbm, ⟨13, _⟩ => ⟨S50, .f32⟩
  | .hbm, ⟨14, _⟩ => ⟨S100x50, .f32⟩
  | .hbm, ⟨15, _⟩ => ⟨S50, .f32⟩
  | .hbm, ⟨16, _⟩ => ⟨S50000x100, .f32⟩
  | .hbm, ⟨17, _⟩ => ⟨S1x100, .f32⟩
  | .hbm, ⟨18, _⟩ => ⟨S50000x100, .f32⟩
  | .hbm, ⟨19, _⟩ => ⟨S50000x100, .f32⟩
  | .hbm, ⟨20, _⟩ => ⟨S_, .f32⟩
  | .hbm, ⟨21, _⟩ => ⟨S50000x100, .f32⟩
  | .hbm, ⟨22, _⟩ => ⟨S50000x100, .f32⟩
  | .hbm, ⟨23, _⟩ => ⟨S500000x50, .f32⟩
  | .hbm, ⟨24, _⟩ => ⟨S1x50, .f32⟩
  | .hbm, ⟨25, _⟩ => ⟨S500000x50, .f32⟩
  | .hbm, ⟨26, _⟩ => ⟨S500000x50, .f32⟩
  | .hbm, ⟨27, _⟩ => ⟨S_, .f32⟩
  | .hbm, ⟨28, _⟩ => ⟨S500000x50, .f32⟩
  | .hbm, ⟨29, _⟩ => ⟨S500000x50, .f32⟩
  | .hbm, ⟨30, _⟩ => ⟨S_, .f32⟩
  | .hbm, ⟨31, _⟩ => ⟨S50000x50, .f32⟩
  | .hbm, ⟨32, _⟩ => ⟨S500000x1, .i32⟩
  | .hbm, ⟨33, _⟩ => ⟨S50000x50, .f32⟩
  | .hbm, ⟨34, _⟩ => ⟨S50000x150, .f32⟩
  | .hbm, ⟨35, _⟩ => ⟨S50000x50, .f32⟩
  | .hbm, ⟨36, _⟩ => ⟨S1x50, .f32⟩
  | .hbm, ⟨37, _⟩ => ⟨S50000x50, .f32⟩
  | .hbm, ⟨38, _⟩ => ⟨S50000x50, .f32⟩
  | .hbm, ⟨39, _⟩ => ⟨S_, .f32⟩
  | .hbm, ⟨40, _⟩ => ⟨S50000x50, .f32⟩
  | .hbm, ⟨41, _⟩ => ⟨S50000x50, .f32⟩
  | .hbm, ⟨42, _⟩ => ⟨S_, .i32⟩
  | .hbm, ⟨43, _⟩ => ⟨S500000x2, .i32⟩
  | .hbm, ⟨44, _⟩ => ⟨S500000x2, .i1⟩
  | .hbm, ⟨45, _⟩ => ⟨S_, .i32⟩
  | .hbm, ⟨46, _⟩ => ⟨S500000x2, .i32⟩
  | .hbm, ⟨47, _⟩ => ⟨S500000x2, .i32⟩
  | .hbm, ⟨48, _⟩ => ⟨S500000x2, .i32⟩
  | .hbm, ⟨49, _⟩ => ⟨S500000x2x1, .i32⟩
  | .hbm, ⟨50, _⟩ => ⟨S500000x2x75, .f32⟩
  | .hbm, ⟨51, _⟩ => ⟨S500000x150, .f32⟩
  | .hbm, ⟨52, _⟩ => ⟨S500000x2, .i32⟩
  | .hbm, ⟨53, _⟩ => ⟨S_, .i32⟩
  | .hbm, ⟨54, _⟩ => ⟨S500000x2, .i32⟩
  | .hbm, ⟨55, _⟩ => ⟨S500000x2, .i1⟩
  | .hbm, ⟨56, _⟩ => ⟨S_, .i32⟩
  | .hbm, ⟨57, _⟩ => ⟨S500000x2, .i32⟩
  | .hbm, ⟨58, _⟩ => ⟨S500000x2, .i32⟩
  | .hbm, ⟨59, _⟩ => ⟨S500000x2, .i32⟩
  | .hbm, ⟨60, _⟩ => ⟨S500000x2x1, .i32⟩
  | .hbm, ⟨61, _⟩ => ⟨S500000x2x75, .f32⟩
  | .hbm, ⟨62, _⟩ => ⟨S500000x150, .f32⟩
  | .hbm, ⟨63, _⟩ => ⟨S500000x50, .f32⟩
  | .hbm, ⟨64, _⟩ => ⟨S1x50, .f32⟩
  | .hbm, ⟨65, _⟩ => ⟨S500000x50, .f32⟩
  | .hbm, ⟨66, _⟩ => ⟨S500000x50, .f32⟩
  | .hbm, ⟨67, _⟩ => ⟨S_, .f32⟩
  | .hbm, ⟨68, _⟩ => ⟨S500000x50, .f32⟩
  | .hbm, ⟨69, _⟩ => ⟨S500000x50, .f32⟩
  | .hbm, ⟨70, _⟩ => ⟨S500000x50, .f32⟩
  | .hbm, ⟨71, _⟩ => ⟨S1x50, .f32⟩
  | .hbm, ⟨72, _⟩ => ⟨S500000x50, .f32⟩
  | .hbm, ⟨73, _⟩ => ⟨S500000x50, .f32⟩
  | .hbm, ⟨74, _⟩ => ⟨S_, .f32⟩
  | .hbm, ⟨75, _⟩ => ⟨S500000x50, .f32⟩
  | .hbm, ⟨76, _⟩ => ⟨S500000x50, .f32⟩
  | .hbm, ⟨77, _⟩ => ⟨S500000x50, .f32⟩
  | .hbm, ⟨78, _⟩ => ⟨S1x50, .f32⟩
  | .hbm, ⟨79, _⟩ => ⟨S500000x50, .f32⟩
  | .hbm, ⟨80, _⟩ => ⟨S500000x50, .f32⟩
  | .hbm, ⟨81, _⟩ => ⟨S_, .f32⟩
  | .hbm, ⟨82, _⟩ => ⟨S500000x50, .f32⟩
  | .hbm, ⟨83, _⟩ => ⟨S500000x50, .f32⟩
  | .hbm, ⟨84, _⟩ => ⟨S500000x50, .f32⟩
  | .hbm, ⟨85, _⟩ => ⟨S500000x100, .f32⟩
  | .hbm, ⟨86, _⟩ => ⟨S500000x50, .f32⟩
  | .hbm, ⟨87, _⟩ => ⟨S1x50, .f32⟩
  | .hbm, ⟨88, _⟩ => ⟨S500000x50, .f32⟩
  | .hbm, ⟨89, _⟩ => ⟨S500000x50, .f32⟩
  | .hbm, ⟨90, _⟩ => ⟨S_, .f32⟩
  | .hbm, ⟨91, _⟩ => ⟨S500000x50, .f32⟩
  | .hbm, ⟨92, _⟩ => ⟨S500000x50, .f32⟩
  | _, _ => ⟨S50000x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_c_2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call3_cst : Ref sig .tc := ⟨.hbm, 67, rfl⟩
abbrev main_call3_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call4_cst : Ref sig .tc := ⟨.hbm, 74, rfl⟩
abbrev main_call4_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call5_cst : Ref sig .tc := ⟨.hbm, 81, rfl⟩
abbrev main_call5_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call6_cst : Ref sig .tc := ⟨.hbm, 90, rfl⟩
abbrev main_call6_v0 : Ref sig .tc := ⟨.hbm, 91, rfl⟩
abbrev main_v57 : Ref sig .tc := ⟨.hbm, 92, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  bcast_S_S50000x50 : S_.BroadcastsInDim S50000x50 (![] : Fin 0 → Fin S50000x50.rank)
  bcast_S500000_S500000x1_0 : S500000.BroadcastsInDim S500000x1 (![0] : Fin 1 → Fin S500000x1.rank)
  concatenates_S50000x100_S50000x50_S50000x150_d1 : Shape.Concatenates [S50000x100, S50000x50] S50000x150 1
  bcast_S1x50_S50000x50_0_1 : S1x50.BroadcastsInDim S50000x50 (![0, 1] : Fin 2 → Fin S50000x50.rank)
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  shapeCasts_S500000x2x75_S500000x150 : S500000x2x75.ShapeCasts S500000x150
  concatenates_S500000x50_S500000x50_S500000x100_d1 : Shape.Concatenates [S500000x50, S500000x50] S500000x100 1
  dot_S50000x75_S75x100_S50000x100_1_0_0_1_n_n_wf : DotDims.WF S50000x75 S75x100 S50000x100 [1] [0] [0] [1] [] []
  dot_S500000x14_S14x50_S500000x50_1_0_0_1_n_n_wf : DotDims.WF S500000x14 S14x50 S500000x50 [1] [0] [0] [1] [] []
  scatter_S50000x50_S500000x1_S500000x50_1_0_0_1_wf : ScatterDims.WF S50000x50 S500000x1 S500000x50 [1] [0] [0] 1
  dot_S50000x150_S150x50_S50000x50_1_0_0_1_n_n_wf : DotDims.WF S50000x150 S150x50 S50000x50 [1] [0] [0] [1] [] []
  gather_S50000x75_S500000x2x1_S500000x2x75_2_0_n_n_0_2_175_wf : GatherDims.WF S50000x75 S500000x2x1 S500000x2x75 [2] [0] [] [0] [] 2 ![1, 75]
  dot_S500000x150_S150x50_S500000x50_1_0_0_1_n_n_wf : DotDims.WF S500000x150 S150x50 S500000x50 [1] [0] [0] [1] [] []
  dot_S500000x100_S100x50_S500000x50_1_0_0_1_n_n_wf : DotDims.WF S500000x100 S100x50 S500000x50 [1] [0] [0] [1] [] []

variable [Facts₀]

def dot_S50000x75_S75x100_S50000x100_1_0_0_1_n_n : DotDims S50000x75 S75x100 S50000x100 where
  lhsContracting := [1]
  rhsContracting := [0]
  lhsNonContracting := [0]
  rhsNonContracting := [1]
  lhsBatch := []
  rhsBatch := []
  wf := dot_S50000x75_S75x100_S50000x100_1_0_0_1_n_n_wf
def dot_S500000x14_S14x50_S500000x50_1_0_0_1_n_n : DotDims S500000x14 S14x50 S500000x50 where
  lhsContracting := [1]
  rhsContracting := [0]
  lhsNonContracting := [0]
  rhsNonContracting := [1]
  lhsBatch := []
  rhsBatch := []
  wf := dot_S500000x14_S14x50_S500000x50_1_0_0_1_n_n_wf
def scatter_S50000x50_S500000x1_S500000x50_1_0_0_1 : ScatterDims S50000x50 S500000x1 S500000x50 where
  updateWindowDims := [1]
  insertedWindowDims := [0]
  scatterDimsToOperandDims := [0]
  indexVectorDim := 1
  wf := scatter_S50000x50_S500000x1_S500000x50_1_0_0_1_wf
def dot_S50000x150_S150x50_S50000x50_1_0_0_1_n_n : DotDims S50000x150 S150x50 S50000x50 where
  lhsContracting := [1]
  rhsContracting := [0]
  lhsNonContracting := [0]
  rhsNonContracting := [1]
  lhsBatch := []
  rhsBatch := []
  wf := dot_S50000x150_S150x50_S50000x50_1_0_0_1_n_n_wf
def gather_S50000x75_S500000x2x1_S500000x2x75_2_0_n_n_0_2_175 : GatherDims S50000x75 S500000x2x1 S500000x2x75 where
  offsetDims := [2]
  collapsedSliceDims := [0]
  operandBatchingDims := []
  startIndicesBatchingDims := []
  startIndexMap := [0]
  indexVectorDim := 2
  sliceSizes := ![1, 75]
  wf := gather_S50000x75_S500000x2x1_S500000x2x75_2_0_n_n_0_2_175_wf
def dot_S500000x150_S150x50_S500000x50_1_0_0_1_n_n : DotDims S500000x150 S150x50 S500000x50 where
  lhsContracting := [1]
  rhsContracting := [0]
  lhsNonContracting := [0]
  rhsNonContracting := [1]
  lhsBatch := []
  rhsBatch := []
  wf := dot_S500000x150_S150x50_S500000x50_1_0_0_1_n_n_wf
def dot_S500000x100_S100x50_S500000x50_1_0_0_1_n_n : DotDims S500000x100 S100x50 S500000x50 where
  lhsContracting := [1]
  rhsContracting := [0]
  lhsNonContracting := [0]
  rhsNonContracting := [1]
  lhsBatch := []
  rhsBatch := []
  wf := dot_S500000x100_S100x50_S500000x50_1_0_0_1_n_n_wf

class Facts : Prop extends Facts₀ where

variable [Facts]
-- ==== Proof.KernelRun.lean ====
/-
  The idealized kernel's run with its two results named.

  @main is five segments: the host operations before the first call, the pair projection over all pairs, the
  scatter-add of its rows into atoms, the atom branch, the pair branch. The run below is the whole-program run over
  those segments with its last boundary read at the two result buffers as well as at the sixteen arguments: every
  weakly fair execution terminates, the atom result and the pair result hold what the last boundary's contents
  `W5` give them, and every argument holds what it was launched with.
-/
import proofs.«142182_j14705968022036_1_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two results end at the last boundary's
    contents and the arguments as launched. -/
theorem run_results : θ_run defs (onTc (τ := τ) (main (F := F))) ⟨m, fun _ => 0, ρ⟩ (fun r => ∀ c : Dev nD,
      r.2.mem ((c.tc : Thread nD τ).loc main_v34) = W5 m ρ c (Proc.devRef .tc main_v34)
      ∧ r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v34 (by decide)),
       h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.KernelIdeal.Res

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Spec.lean ====
/-
  The Weave layer, entry by entry, on the extended reals.

  Every dense step is `relu (x · w + b)`: a row of `x` against a column of `w`, plus the bias entry, clipped below at
  zero. The atom result joins two such steps through a weight matrix whose rows are split 100 | 50; the pair result
  gathers two atom rows per pair, applies one weight matrix whose rows are split 75 | 75 to the pair in both orders,
  adds the two, and joins the sum with a dense step of the pair features through a weight matrix split 50 | 50.
  A product of a concatenated row with the whole weight matrix is the sum of the two partial products (`sum_split`):
  the only law that separates the two ways of computing the layer, and it holds for all extended reals.
-/
import Idealize.ShloMosaic.PureOps.Ideal
import Idealize.ShloMosaic.PureOps.Ideal.Laws
import Idealize.ShloMosaic.Lib.ValueIdx

noncomputable section

open scoped BigOperators

namespace Cert.Weave

open Idealize.ShloMosaic Idealize.ShloMosaic.ValueIdx

/-- `max z 0`, spelt as both programs spell it. -/
def relu (z : Ideal .f32) : Ideal .f32 := FloatOps.maximumf z (FloatOps.ofBits .f32 0x00000000#32)

/-- A row against a column: the sum of the products of their entries. -/
def rowdot {K : ℕ} (x w : Fin K → Ideal .f32) : Ideal .f32 := ∑ k : Fin K, x k * w k

/-- A sum over `a + b` terms is the sum of the first `a` plus the sum of the last `b`. -/
theorem sum_split (a b n : ℕ) (h : a + b = n) (f : Fin n → Ideal .f32) :
    ∑ k : Fin n, f k = (∑ k : Fin a, f ⟨k.val, by omega⟩) + ∑ k : Fin b, f ⟨a + k.val, by omega⟩ := by
  subst h
  rw [Fin.sum_univ_add]
  rfl

/-- A row of a concatenation against a column is the sum of the two partial products. -/
theorem rowdot_split (a b n : ℕ) (h : a + b = n) (x w : Fin n → Ideal .f32) :
    rowdot x w = rowdot (fun k : Fin a => x ⟨k.val, by omega⟩) (fun k : Fin a => w ⟨k.val, by omega⟩)
      + rowdot (fun k : Fin b => x ⟨a + k.val, by omega⟩) (fun k : Fin b => w ⟨a + k.val, by omega⟩) :=
  sum_split a b n h fun k => x k * w k

/-! ## Row indices -/

/-- A row index as the gather reads it: a negative index counts from the end. -/
def wrap (a : BitVec 32) : BitVec 32 := Scalar.select (IntOp.cmpi .slt a 0#32) (IntOp.addi a 50000#32) a

/-- The atom row a pair's index word selects: read signed, clamped into the table. -/
def row (a : BitVec 32) : Fin 50000 := ⟨min (wrap a).toInt.toNat 49999, by omega⟩

/-! ## The atom branch -/

section
variable (af : FVec Ideal ⟨2, ![50000, 75]⟩ .f32) (pf : FVec Ideal ⟨2, ![500000, 14]⟩ .f32)
  (Waa : FVec Ideal ⟨2, ![75, 100]⟩ .f32) (baa : FVec Ideal ⟨1, ![100]⟩ .f32)
  (Wpa : FVec Ideal ⟨2, ![14, 50]⟩ .f32) (bpa : FVec Ideal ⟨1, ![50]⟩ .f32)
  (Wao : FVec Ideal ⟨2, ![150, 50]⟩ .f32) (bao : FVec Ideal ⟨1, ![50]⟩ .f32)
  (Wap : FVec Ideal ⟨2, ![150, 50]⟩ .f32) (bap : FVec Ideal ⟨1, ![50]⟩ .f32)
  (Wpp : FVec Ideal ⟨2, ![14, 50]⟩ .f32) (bpp : FVec Ideal ⟨1, ![50]⟩ .f32)
  (Wpo : FVec Ideal ⟨2, ![100, 50]⟩ .f32) (bpo : FVec Ideal ⟨1, ![50]⟩ .f32)
  (seg : FVec Ideal ⟨2, ![50000, 50]⟩ .f32) (gi gj : Fin 500000 → Fin 50000)

/-- The pair features projected for the atoms, pair `p`, column `c`. -/
def PA (p : Fin 500000) (c : Fin 50) : Ideal .f32 :=
  relu (rowdot (fun k : Fin 14 => pf (ix2 p k)) (fun k => Wpa (ix2 k c)) + bpa (ix1 c))

/-- The same as an array. -/
def PAarr : FVec Ideal ⟨2, ![500000, 50]⟩ .f32 := fun i => PA pf Wpa bpa (i 0) (i 1)

/-- The atom features projected, atom `r`, column `k`. -/
def AA (r : Fin 50000) (k : Fin 100) : Ideal .f32 :=
  relu (rowdot (fun j : Fin 75 => af (ix2 r j)) (fun j => Waa (ix2 j k)) + baa (ix1 k))

/-- THE ATOM RESULT at `(r, c)`: the projected atom row against the first 100 rows of the output weights, plus the
    atom's summed pair projections `seg` against the last 50, plus the bias, clipped. -/
def A (r : Fin 50000) (c : Fin 50) : Ideal .f32 :=
  relu ((rowdot (fun k : Fin 100 => AA af Waa baa r k) (fun k => Wao (ix2 (⟨k.val, by omega⟩ : Fin 150) c))
      + rowdot (fun k : Fin 50 => seg (ix2 r k)) (fun k => Wao (ix2 (⟨100 + k.val, by omega⟩ : Fin 150) c)))
    + bao (ix1 c))

/-! ## The pair branch -/

/-- The pair `(u, v)` of atom rows through the pair weights, column `k`: row `u` against the first 75 weight rows plus
    row `v` against the last 75, plus the bias, clipped. -/
def AP (u v : Fin 50000) (k : Fin 50) : Ideal .f32 :=
  relu ((rowdot (fun j : Fin 75 => af (ix2 u j)) (fun j => Wap (ix2 (⟨j.val, by omega⟩ : Fin 150) k))
      + rowdot (fun j : Fin 75 => af (ix2 v j)) (fun j => Wap (ix2 (⟨75 + j.val, by omega⟩ : Fin 150) k)))
    + bap (ix1 k))

/-- The pair features projected for the pairs, pair `p`, column `k`. -/
def PP (p : Fin 500000) (k : Fin 50) : Ideal .f32 :=
  relu (rowdot (fun j : Fin 14 => pf (ix2 p j)) (fun j => Wpp (ix2 j k)) + bpp (ix1 k))

/-- THE PAIR RESULT at `(p, c)`: the two orders of the pair's atoms added, against the first 50 rows of the output
    weights, plus the projected pair features against the last 50, plus the bias, clipped. -/
def P (p : Fin 500000) (c : Fin 50) : Ideal .f32 :=
  relu ((rowdot (fun k : Fin 50 => AP af Wap bap (gi p) (gj p) k + AP af Wap bap (gj p) (gi p) k)
        (fun k => Wpo (ix2 (⟨k.val, by omega⟩ : Fin 100) c))
      + rowdot (fun k : Fin 50 => PP pf Wpp bpp p k) (fun k => Wpo (ix2 (⟨50 + k.val, by omega⟩ : Fin 100) c)))
    + bpo (ix1 c))

end

end Cert.Weave

end
-- ==== Proof.KernelPay.lean ====
/-
  The three kernel bodies, entry by entry, on the extended reals.

  Each body loads whole blocks, narrows them (the identity on the extended reals), multiplies into a zero
  accumulator, adds a bias row broadcast down the block, and clips at zero. Read at `(p, q)` of the block, a product
  into a zero accumulator is a row of the left block against a column of the right one, and the broadcast bias is its
  entry `q`.
-/
import proofs.«142182_j14705968022036_1_alg».proof.Proof.Gen.KernelIdeal.Skeleton
import proofs.«142182_j14705968022036_1_alg».proof.Proof.LibPlainDot
import proofs.«142182_j14705968022036_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Weave Cert.LibPlainDot

/-- A product into a zero accumulator, for ANY dimension record whose lists are those of a plain
    `[A, K] × [K, B]` product, read at `(p, q)`: row `p` of the left operand against column `q` of the right. -/
theorem lin_apply {A K B : ℕ} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    {φ₁ φ₂ : FTy} (x : FVec Ideal ⟨2, ![A, K]⟩ φ₁) (w : FVec Ideal ⟨2, ![K, B]⟩ φ₂) (p : Fin A) (q : Fin B) :
    FloatOps.matmul d none x w (constant ⟨2, ![A, B]⟩ .f32 0x00000000#32) (ix2 p q)
      = rowdot (fun k : Fin K => x (ix2 p k)) (fun k => w (ix2 k q)) := by
  obtain ⟨lc, rc, ln, rn, lb, rb, wf⟩ := d
  dsimp only at h1 h2 h3 h4 h5 h6
  subst h1 h2 h3 h4 h5 h6
  exact matmul_zero_apply wf none x w p q

/-- The bias row of a block, kept as `[1, B]` and broadcast down `A` rows, read at `(p, q)`: its entry `q`. -/
theorem bias_apply {A B : ℕ} (b : FVec Ideal ⟨2, ![1, B]⟩ .f32) (hs : (⟨2, ![1, B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ b hs) hb (ix2 p q) = b (ix2 (0 : Fin 1) q) := by
  rw [shapeCast_self, broadcastTo_1b_ab_apply]

/-- THE PAIR PROJECTION'S BODY at `(p, q)` of its block: the pair-feature row against the weight column, plus the
    bias, clipped. -/
theorem pay0_apply (x0 : FVec Ideal S10000x14 .f32) (x1 : FVec Ideal S14x50 .f32) (x2 : FVec Ideal S1x50 .f32)
    (p : Fin 10000) (q : Fin 50) :
    k0_pay1 x0 x1 x2 (ix2 p q)
      = relu (rowdot (fun k : Fin 14 => x0 (ix2 p k)) (fun k => x1 (ix2 k q)) + x2 (ix2 (0 : Fin 1) q)) := by
  unfold k0_pay1
  show FloatOps.maximumf (FloatOps.addf
      (FloatOps.matmul dot_S10000x14_S14x50_S10000x50_1_0_0_1_n_n none (truncf .bf16 x0 bitsLt_bf16_f32)
        (truncf .bf16 x1 bitsLt_bf16_f32) (constant S10000x50 .f32 0x00000000#32) (ix2 p q))
      (broadcastTo S10000x50 (shapeCast S1x50 x2 shapeCasts_S1x50_S1x50) broadcasts_S1x50_S10000x50 (ix2 p q)))
      (Scalar.ofBits .f32 0x00000000#32) = _
  rw [bias_apply x2 shapeCasts_S1x50_S1x50 broadcasts_S1x50_S10000x50 p q,
    lin_apply dot_S10000x14_S14x50_S10000x50_1_0_0_1_n_n rfl rfl rfl rfl rfl rfl]
  rfl

/-- THE ATOM BRANCH'S BODY at `(p, q)` of its block: the projected atom row (itself a clipped dense step of the atom
    features) against the first weight block, plus the summed pair projections' row against the second, plus the
    bias, clipped. -/
theorem pay1_apply (x0 : FVec Ideal S5000x75 .f32) (x1 : FVec Ideal S5000x50 .f32) (x2 : FVec Ideal S75x100 .f32)
    (x3 : FVec Ideal S100x50 .f32) (x4 : FVec Ideal S50x50 .f32) (x5 : FVec Ideal S1x100 .f32) (x6 : FVec Ideal S1x50 .f32)
    (p : Fin 5000) (q : Fin 50) :
    k1_pay1 x0 x1 x2 x3 x4 x5 x6 (ix2 p q)
      = relu ((rowdot (fun k : Fin 100 =>
              relu (rowdot (fun j : Fin 75 => x0 (ix2 p j)) (fun j => x2 (ix2 j k)) + x5 (ix2 (0 : Fin 1) k)))
            (fun k => x3 (ix2 k q))
          + rowdot (fun k : Fin 50 => x1 (ix2 p k)) (fun k => x4 (ix2 k q)))
        + x6 (ix2 (0 : Fin 1) q)) := by
  unfold k1_pay1
  show FloatOps.maximumf (FloatOps.addf (FloatOps.addf
        (FloatOps.matmul dot_S5000x100_S100x50_S5000x50_1_0_0_1_n_n none
          (truncf .bf16 (maximumf (addf
            (FloatOps.matmul dot_S5000x75_S75x100_S5000x100_1_0_0_1_n_n none (truncf .bf16 x0 bitsLt_bf16_f32)
              (truncf .bf16 x2 bitsLt_bf16_f32) (constant S5000x100 .f32 0x00000000#32))
            (broadcastTo S5000x100 (shapeCast S1x100 x5 shapeCasts_S1x100_S1x100) broadcasts_S1x100_S5000x100))
            (broadcast S5000x100 (Scalar.ofBits .f32 0x00000000#32))) bitsLt_bf16_f32)
          (truncf .bf16 (shapeCast S100x50 x3 shapeCasts_S100x50_S100x50) bitsLt_bf16_f32)
          (constant S5000x50 .f32 0x00000000#32) (ix2 p q))
        (FloatOps.matmul dot_S5000x50_S50x50_S5000x50_1_0_0_1_n_n none
          (truncf .bf16 (shapeCast S5000x50 x1 shapeCasts_S5000x50_S5000x50) bitsLt_bf16_f32)
          (truncf .bf16 (shapeCast S50x50 x4 shapeCasts_S50x50_S50x50) bitsLt_bf16_f32)
          (constant S5000x50 .f32 0x00000000#32) (ix2 p q)))
      (broadcastTo S5000x50 (shapeCast S1x50 x6 shapeCasts_S1x50_S1x50) broadcasts_S1x50_S5000x50 (ix2 p q)))
      (Scalar.ofBits .f32 0x00000000#32) = _
  simp only [shapeCast_self]
  rw [broadcastTo_1b_ab_apply, lin_apply dot_S5000x100_S100x50_S5000x50_1_0_0_1_n_n rfl rfl rfl rfl rfl rfl,
    lin_apply dot_S5000x50_S50x50_S5000x50_1_0_0_1_n_n rfl rfl rfl rfl rfl rfl]
  have hH : ∀ k : Fin 100,
      truncf .bf16 (maximumf (addf
        (FloatOps.matmul dot_S5000x75_S75x100_S5000x100_1_0_0_1_n_n none (truncf .bf16 x0 bitsLt_bf16_f32)
          (truncf .bf16 x2 bitsLt_bf16_f32) (constant S5000x100 .f32 0x00000000#32))
        (broadcastTo S5000x100 x5 broadcasts_S1x100_S5000x100))
        (broadcast S5000x100 (Scalar.ofBits .f32 0x00000000#32))) bitsLt_bf16_f32 (ix2 p k)
      = relu (rowdot (fun j : Fin 75 => x0 (ix2 p j)) (fun j => x2 (ix2 j k)) + x5 (ix2 (0 : Fin 1) k)) := fun k => by
    show FloatOps.maximumf (FloatOps.addf
        (FloatOps.matmul dot_S5000x75_S75x100_S5000x100_1_0_0_1_n_n none (truncf .bf16 x0 bitsLt_bf16_f32)
          (truncf .bf16 x2 bitsLt_bf16_f32) (constant S5000x100 .f32 0x00000000#32) (ix2 p k))
        (broadcastTo S5000x100 x5 broadcasts_S1x100_S5000x100 (ix2 p k)))
        (Scalar.ofBits .f32 0x00000000#32) = _
    rw [broadcastTo_1b_ab_apply, lin_apply dot_S5000x75_S75x100_S5000x100_1_0_0_1_n_n rfl rfl rfl rfl rfl rfl]
    rfl
  simp only [hH]
  rfl

/-- Two rows against two columns, a bias and a clip: replacing the rows entry by entry. -/
theorem clip2_congr {K₁ K₂ : ℕ} (f f' w₁ : Fin K₁ → Ideal .f32) (g g' w₂ : Fin K₂ → Ideal .f32) (b z : Ideal .f32)
    (hf : ∀ k, f k = f' k) (hg : ∀ k, g k = g' k) :
    FloatOps.maximumf (FloatOps.addf (FloatOps.addf (rowdot f w₁) (rowdot g w₂)) b) z
      = FloatOps.maximumf (FloatOps.addf (FloatOps.addf (rowdot f' w₁) (rowdot g' w₂)) b) z := by
  rw [funext hf, funext hg]

/-- THE PAIR BRANCH'S BODY at `(p, q)` of its block. With `u` the first gathered atom row, `v` the second: the sum of
    the pair step in the order `(u, v)` and in the order `(v, u)` against the first output weight block, plus the
    projected pair features against the second, plus the bias, clipped. -/
theorem pay2_apply (x0 x1 : FVec Ideal S5000x75 .f32) (x2 : FVec Ideal S5000x14 .f32) (x3 x4 : FVec Ideal S75x50 .f32)
    (x5 : FVec Ideal S1x50 .f32) (x6 : FVec Ideal S14x50 .f32) (x7 : FVec Ideal S1x50 .f32)
    (x8 x9 : FVec Ideal S50x50 .f32) (x10 : FVec Ideal S1x50 .f32) (p : Fin 5000) (q : Fin 50) :
    k2_pay1 (k2_pay4 x2) (k2_pay7 x6) (k2_pay8 x8) (k2_pay9 x9) (k2_pay10 x0 x1 x3 x4 x5) (k2_pay11 x0 x1 x3 x4)
        x5 x7 x10 (ix2 p q)
      = relu ((rowdot (fun k : Fin 50 =>
              relu ((rowdot (fun j : Fin 75 => x0 (ix2 p j)) (fun j => x3 (ix2 j k))
                  + rowdot (fun j : Fin 75 => x1 (ix2 p j)) (fun j => x4 (ix2 j k))) + x5 (ix2 (0 : Fin 1) k))
              + relu ((rowdot (fun j : Fin 75 => x1 (ix2 p j)) (fun j => x3 (ix2 j k))
                  + rowdot (fun j : Fin 75 => x0 (ix2 p j)) (fun j => x4 (ix2 j k))) + x5 (ix2 (0 : Fin 1) k)))
            (fun k => x8 (ix2 k q))
          + rowdot (fun k : Fin 50 =>
              relu (rowdot (fun j : Fin 14 => x2 (ix2 p j)) (fun j => x6 (ix2 j k)) + x7 (ix2 (0 : Fin 1) k)))
            (fun k => x9 (ix2 k q)))
        + x10 (ix2 (0 : Fin 1) q)) := by
  unfold k2_pay1 k2_pay10 k2_pay11 k2_pay2 k2_pay3 k2_pay4 k2_pay5 k2_pay6 k2_pay7 k2_pay8 k2_pay9
  simp only [shapeCast_self]
  show FloatOps.maximumf (FloatOps.addf (FloatOps.addf
        (FloatOps.matmul dot_S5000x50_S50x50_S5000x50_1_0_0_1_n_n none _ _ _ (ix2 p q))
        (FloatOps.matmul dot_S5000x50_S50x50_S5000x50_1_0_0_1_n_n none _ _ _ (ix2 p q)))
      (broadcastTo S5000x50 x10 broadcasts_S1x50_S5000x50 (ix2 p q))) (Scalar.ofBits .f32 0x00000000#32) = _
  rw [broadcastTo_1b_ab_apply, lin_apply dot_S5000x50_S50x50_S5000x50_1_0_0_1_n_n rfl rfl rfl rfl rfl rfl,
    lin_apply dot_S5000x50_S50x50_S5000x50_1_0_0_1_n_n rfl rfl rfl rfl rfl rfl]
  refine (clip2_congr _
    (fun k : Fin 50 =>
      relu ((rowdot (fun j : Fin 75 => x0 (ix2 p j)) (fun j => x3 (ix2 j k))
          + rowdot (fun j : Fin 75 => x1 (ix2 p j)) (fun j => x4 (ix2 j k))) + x5 (ix2 (0 : Fin 1) k))
      + relu ((rowdot (fun j : Fin 75 => x1 (ix2 p j)) (fun j => x3 (ix2 j k))
          + rowdot (fun j : Fin 75 => x0 (ix2 p j)) (fun j => x4 (ix2 j k))) + x5 (ix2 (0 : Fin 1) k)))
    _ _
    (fun k : Fin 50 =>
      relu (rowdot (fun j : Fin 14 => x2 (ix2 p j)) (fun j => x6 (ix2 j k)) + x7 (ix2 (0 : Fin 1) k)))
    _ _ _ (fun k => ?_) (fun k => ?_)).trans ?_
  · show FloatOps.addf
        (FloatOps.maximumf (FloatOps.addf (FloatOps.addf
          (FloatOps.matmul dot_S5000x75_S75x50_S5000x50_1_0_0_1_n_n none _ _ _ (ix2 p k))
          (FloatOps.matmul dot_S5000x75_S75x50_S5000x50_1_0_0_1_n_n none _ _ _ (ix2 p k)))
          (broadcastTo S5000x50 x5 broadcasts_S1x50_S5000x50 (ix2 p k))) (Scalar.ofBits .f32 0x00000000#32))
        (FloatOps.maximumf (FloatOps.addf (FloatOps.addf
          (FloatOps.matmul dot_S5000x75_S75x50_S5000x50_1_0_0_1_n_n none _ _ _ (ix2 p k))
          (FloatOps.matmul dot_S5000x75_S75x50_S5000x50_1_0_0_1_n_n none _ _ _ (ix2 p k)))
          (broadcastTo S5000x50 x5 broadcasts_S1x50_S5000x50 (ix2 p k))) (Scalar.ofBits .f32 0x00000000#32)) = _
    rw [broadcastTo_1b_ab_apply, lin_apply dot_S5000x75_S75x50_S5000x50_1_0_0_1_n_n rfl rfl rfl rfl rfl rfl,
      lin_apply dot_S5000x75_S75x50_S5000x50_1_0_0_1_n_n rfl rfl rfl rfl rfl rfl,
      lin_apply dot_S5000x75_S75x50_S5000x50_1_0_0_1_n_n rfl rfl rfl rfl rfl rfl,
      lin_apply dot_S5000x75_S75x50_S5000x50_1_0_0_1_n_n rfl rfl rfl rfl rfl rfl]
    rfl
  · show FloatOps.maximumf (FloatOps.addf
          (FloatOps.matmul dot_S5000x14_S14x50_S5000x50_1_0_0_1_n_n none _ _ _ (ix2 p k))
          (broadcastTo S5000x50 x7 broadcasts_S1x50_S5000x50 (ix2 p k))) (Scalar.ofBits .f32 0x00000000#32) = _
    rw [broadcastTo_1b_ab_apply, lin_apply dot_S5000x14_S14x50_S5000x50_1_0_0_1_n_n rfl rfl rfl rfl rfl rfl]
    rfl
  · rfl

end Cert.KernelIdeal.Pay

end
-- ==== Proof.Region0.lean ====
/-
  The pair projection over all pairs: the first call's result array as one function of the arrays it reads.

  The call cuts the 500000 pair rows into 50 blocks of 10000; the weight matrix and the bias row are read whole at
  every block. Block `t` of the result is the body's value on block `t` of the pair features, so entry `(r, c)` of the
  result is the clipped dense step of pair row `r`; the 50 blocks tile the array, so that holds at every entry.
-/
import proofs.«142182_j14705968022036_1_alg».proof.Proof.Gen.KernelIdeal.Frame
import proofs.«142182_j14705968022036_1_alg».proof.Proof.KernelPay
import proofs.«142182_j14705968022036_1_alg».proof.Proof.Spec
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen Cert.KernelIdeal.Pay Cert.Weave
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array: the clipped dense step of every pair row. -/
def g (pf : FVec Ideal S500000x14 .f32) (W : FVec Ideal S14x50 .f32) (b : FVec Ideal S1x50 .f32) (r : Fin 500000) (q : Fin 50) : Ideal .f32 :=
  relu (rowdot (fun k : Fin 14 => pf (ix2 r k)) (fun k => W (ix2 k q)) + b (ix2 (0 : Fin 1) q))

/-- The same as an array. -/
def G (pf : FVec Ideal S500000x14 .f32) (W : FVec Ideal S14x50 .f32) (b : FVec Ideal S1x50 .f32) :
    FVec Ideal S500000x50 .f32 :=
  fun i => g pf W b (i 0) (i 1)

/-- The printed index maps over the grid: the pair-feature block moves with the result block down the rows; the weight
    and the bias windows stay at the origin. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 49 :=
  (by decide +kernel : ∀ t : Fin grid0.N, _)

/-- Every row block is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- WHAT POINT `t` WRITES BACK is block `t` of `G` of the arrays as the call finds them. -/
theorem flushed_eq (c : Dev nD) (t : Fin cfg0.N) :
    (dat0 V c).flushed 3 t
      = ((cfg0.win 3).blk t).view.read (Elt Ideal) (G (V c main_arg1) (V c main_arg6) (V c main_v25)) := by
  show (cfg0.win 3).cut (grid0.coords t) ((dat0 V c).after 3 t) = _
  rw [after0_3]
  unfold out0_3
  rw [View.canon_unit_zero hz]
  simp only [View.ld_unit_zero (S := S10000x14) hz, View.ld_unit_zero (S := S14x50) hz, View.ld_unit_zero (S := S1x50) hz]
  obtain ⟨e0, e1, e2, e3, e4, e5, e6, e7⟩ := idx_facts t
  funext j
  obtain ⟨y, q, rfl⟩ : ∃ (y : Fin 10000) (q : Fin 50), j = ix2 y q := ⟨j 0, j 1, @eq_ix2 10000 50 j⟩
  show k0_pay1 (iblk0 V c 0 t) (iblk0 V c 1 t) (iblk0 V c 2 t) (ix2 y q)
    = G (V c main_arg1) (V c main_arg6) (V c main_v25) (((cfg0.win 3).blk t).view.emb (ix2 y q))
  refine (pay0_apply (iblk0 V c 0 t) (iblk0 V c 1 t) (iblk0 V c 2 t) y q).trans ?_
  have h0 : ∀ k : Fin 14, iblk0 V c 0 t (ix2 y k)
      = V c main_arg1 (ix2 ((((cfg0.win 3).blk t).view.emb (ix2 y q)) 0) k) := fun k => by
    show V c main_arg1 (((cfg0.win 0).blk t).view.emb (ix2 y k)) = _
    refine congrArg (V c main_arg1) (funext fun a => Fin.ext ?_)
    match a with
    | ⟨0, _⟩ =>
      show win0_0.index t (0 : Fin 2) * 10000 + 1 * y.val = win0_3.index t (0 : Fin 2) * 10000 + 1 * y.val
      omega
    | ⟨1, _⟩ => show win0_0.index t (1 : Fin 2) * 14 + 1 * k.val = k.val; omega
  have h1 : ∀ k : Fin 14, iblk0 V c 1 t (ix2 k q)
      = V c main_arg6 (ix2 k ((((cfg0.win 3).blk t).view.emb (ix2 y q)) 1)) := fun k => by
    show V c main_arg6 (((cfg0.win 1).blk t).view.emb (ix2 k q)) = _
    refine congrArg (V c main_arg6) (funext fun a => Fin.ext ?_)
    match a with
    | ⟨0, _⟩ => show win0_1.index t (0 : Fin 2) * 14 + 1 * k.val = k.val; omega
    | ⟨1, _⟩ =>
      show win0_1.index t (1 : Fin 2) * 50 + 1 * q.val = win0_3.index t (1 : Fin 2) * 50 + 1 * q.val
      omega
  have h2 : iblk0 V c 2 t (ix2 (0 : Fin 1) q)
      = V c main_v25 (ix2 (0 : Fin 1) ((((cfg0.win 3).blk t).view.emb (ix2 y q)) 1)) := by
    show V c main_v25 (((cfg0.win 2).blk t).view.emb (ix2 (0 : Fin 1) q)) = _
    refine congrArg (V c main_v25) (funext fun a => Fin.ext ?_)
    match a with
    | ⟨0, _⟩ => show win0_2.index t (0 : Fin 2) * 1 + 1 * 0 = 0; omega
    | ⟨1, _⟩ =>
      show win0_2.index t (1 : Fin 2) * 50 + 1 * q.val = win0_3.index t (1 : Fin 2) * 50 + 1 * q.val
      omega
  simp only [h0, h1, h2]
  rfl

/-- An index of the result array is in point `t`'s block iff each coordinate is in the block's range. -/
theorem mem_blk (t : Fin cfg0.N) (i : S500000x50.Idx) :
    i ∈ ((cfg0.win 3).blk t).view.set ↔ ∀ a : Fin 2, win0_3.index t a * S10000x50.size a ≤ (i a).val
      ∧ (i a).val < win0_3.index t a * S10000x50.size a + S10000x50.size a := by
  show i ∈ ((View.whole main_v30).slice (win0_3.rect t)).set ↔ _
  rw [View.set_slice_whole, Rect.mem_set_unit]
  exact Iff.rfl

/-- The 50 row blocks tile the result array. -/
theorem cover (i : S500000x50.Idx) :
    ∃ t : Fin cfg0.N, (cfg0.win 3).flush t = true ∧ i ∈ ((cfg0.win 3).blk t).view.set := by
  have hi0 : (i 0).val < 500000 := (i 0).isLt
  have hi1 : (i 1).val < 50 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 50 ≤ (i 1).val ∧ (i 1).val < win0_3.index t (1 : Fin 2) * 50 + 50
    omega

/-- THE RESULT ARRAY after the call: `G` of the arrays as the call finds them. -/
theorem final (c : Dev nD) :
    (dat0 V c).arrAt 3 cfg0.N = G (V c main_arg1) (V c main_arg6) (V c main_v25) :=
  (dat0 V c).arrAt_eq_of_cover 3 _ (fun t _ => flushed_eq V c t) cover

end Cert.KernelIdeal.Reg0

end
-- ==== Proof.Region1.lean ====
/-
  The atom branch: the second call's result array as one function of the arrays it reads.

  The call cuts the 50000 atom rows into 10 blocks of 5000: the atom features and the summed pair projections move with
  the result block, the three weight matrices and the two bias rows are read whole at every block. Entry `(r, c)` of
  the result is the body's value on atom row `r`; the 10 blocks tile the array.
-/
import proofs.«142182_j14705968022036_1_alg».proof.Proof.Gen.KernelIdeal.Frame
import proofs.«142182_j14705968022036_1_alg».proof.Proof.KernelPay
import proofs.«142182_j14705968022036_1_alg».proof.Proof.Spec
import Idealize.ShloMosaic.Lib.Pipeline.Value
import Idealize.ShloMosaic.Lib.ValueIdx

set_option maxRecDepth 16384

noncomputable section

open scoped BigOperators

namespace Cert.KernelIdeal.Reg1

open Cert.KernelIdeal Cert.KernelIdeal.Gen Cert.KernelIdeal.Pay Cert.Weave
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry `(r, c)`: the projected atom row `r` against the first weight block, plus row `r` of the
    summed pair projections against the second, plus the bias, clipped. -/
def g (af : FVec Ideal S50000x75 .f32) (sg : FVec Ideal S50000x50 .f32) (Waa : FVec Ideal S75x100 .f32)
    (baa : FVec Ideal S1x100 .f32) (W1 : FVec Ideal S100x50 .f32) (W2 : FVec Ideal S50x50 .f32)
    (bao : FVec Ideal S1x50 .f32) (r : Fin 50000) (q : Fin 50) : Ideal .f32 :=
  relu ((rowdot (fun k : Fin 100 =>
            relu (rowdot (fun j : Fin 75 => af (ix2 r j)) (fun j => Waa (ix2 j k)) + baa (ix2 (0 : Fin 1) k)))
          (fun k => W1 (ix2 k q))
        + rowdot (fun k : Fin 50 => sg (ix2 r k)) (fun k => W2 (ix2 k q)))
      + bao (ix2 (0 : Fin 1) q))

/-- The same as an array. -/
def G (af : FVec Ideal S50000x75 .f32) (sg : FVec Ideal S50000x50 .f32) (Waa : FVec Ideal S75x100 .f32)
    (baa : FVec Ideal S1x100 .f32) (W1 : FVec Ideal S100x50 .f32) (W2 : FVec Ideal S50x50 .f32)
    (bao : FVec Ideal S1x50 .f32) :
    FVec Ideal S50000x50 .f32 :=
  fun i => g af sg Waa baa W1 W2 bao (i 0) (i 1)

/-- The printed index maps over the grid: the two row-blocked inputs move with the result block; every other window
    stays at the origin. -/
theorem idx_facts : ∀ t : Fin cfg1.N,
    win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (1 : Fin 2) = 0
    ∧ win1_7.index t (0 : Fin 2) ≤ 9 :=
  (by decide +kernel : ∀ t : Fin grid1.N, _)

/-- Every row block is some point's. -/
theorem idx_onto : ∀ q0 : Fin 10, ∃ t : Fin cfg1.N, win1_7.index t = ![q0.val, 0] :=
  (by decide +kernel : ∀ q0 : Fin 10, ∃ t : Fin grid1.N, win1_7.index t = ![q0.val, 0])

/-- WHAT POINT `t` WRITES BACK is block `t` of `G` of the arrays as the call finds them. -/
theorem flushed_eq (c : Dev nD) (t : Fin cfg1.N) :
    (dat1 V c).flushed 7 t = ((cfg1.win 7).blk t).view.read (Elt Ideal)
      (G (V c main_arg0) (V c main_v33) (V c main_arg4) (V c main_v24) (V c main_v20) (V c main_v21) (V c main_v28)) := by
  show (cfg1.win 7).cut (grid1.coords t) ((dat1 V c).after 7 t) = _
  rw [after1_7]
  unfold out1_7
  rw [View.canon_unit_zero hz]
  simp only [View.ld_unit_zero (S := S5000x75) hz, View.ld_unit_zero (S := S5000x50) hz,
    View.ld_unit_zero (S := S75x100) hz, View.ld_unit_zero (S := S100x50) hz, View.ld_unit_zero (S := S50x50) hz,
    View.ld_unit_zero (S := S1x100) hz, View.ld_unit_zero (S := S1x50) hz]
  obtain ⟨e0, e1, e2, e3, e4, e5, e6, e7, e8, e9, e10, e11, e12, e13, e14, e15⟩ := idx_facts t
  funext j
  obtain ⟨y, q, rfl⟩ : ∃ (y : Fin 5000) (q : Fin 50), j = ix2 y q := ⟨j 0, j 1, @eq_ix2 5000 50 j⟩
  show k1_pay1 (iblk1 V c 0 t) (iblk1 V c 1 t) (iblk1 V c 2 t) (iblk1 V c 4 t) (iblk1 V c 5 t) (iblk1 V c 3 t)
      (iblk1 V c 6 t) (ix2 y q)
    = G (V c main_arg0) (V c main_v33) (V c main_arg4) (V c main_v24) (V c main_v20) (V c main_v21) (V c main_v28)
      (((cfg1.win 7).blk t).view.emb (ix2 y q))
  refine (pay1_apply (iblk1 V c 0 t) (iblk1 V c 1 t) (iblk1 V c 2 t) (iblk1 V c 4 t) (iblk1 V c 5 t) (iblk1 V c 3 t)
    (iblk1 V c 6 t) y q).trans ?_
  have h0 : ∀ (j : Fin 75), iblk1 V c 0 t (ix2 y j)
      = V c main_arg0 (ix2 ((((cfg1.win 7).blk t).view.emb (ix2 y q)) 0) j) := fun j => by
    show V c main_arg0 (((cfg1.win 0).blk t).view.emb (ix2 y j)) = _
    refine congrArg (V c main_arg0) (funext fun a => Fin.ext ?_)
    match a with
    | ⟨0, _⟩ =>
      show win1_0.index t (0 : Fin 2) * 5000 + 1 * y.val = win1_7.index t (0 : Fin 2) * 5000 + 1 * y.val
      omega
    | ⟨1, _⟩ =>
      show win1_0.index t (1 : Fin 2) * 75 + 1 * j.val = j.val
      omega
  have h1 : ∀ (k : Fin 50), iblk1 V c 1 t (ix2 y k)
      = V c main_v33 (ix2 ((((cfg1.win 7).blk t).view.emb (ix2 y q)) 0) k) := fun k => by
    show V c main_v33 (((cfg1.win 1).blk t).view.emb (ix2 y k)) = _
    refine congrArg (V c main_v33) (funext fun a => Fin.ext ?_)
    match a with
    | ⟨0, _⟩ =>
      show win1_1.index t (0 : Fin 2) * 5000 + 1 * y.val = win1_7.index t (0 : Fin 2) * 5000 + 1 * y.val
      omega
    | ⟨1, _⟩ =>
      show win1_1.index t (1 : Fin 2) * 50 + 1 * k.val = k.val
      omega
  have h2 : ∀ (j : Fin 75) (k : Fin 100), iblk1 V c 2 t (ix2 j k)
      = V c main_arg4 (ix2 j k) := fun j k => by
    show V c main_arg4 (((cfg1.win 2).blk t).view.emb (ix2 j k)) = _
    refine congrArg (V c main_arg4) (funext fun a => Fin.ext ?_)
    match a with
    | ⟨0, _⟩ =>
      show win1_2.index t (0 : Fin 2) * 75 + 1 * j.val = j.val
      omega
    | ⟨1, _⟩ =>
      show win1_2.index t (1 : Fin 2) * 100 + 1 * k.val = k.val
      omega
  have h3 : ∀ (k : Fin 100), iblk1 V c 3 t (ix2 (0 : Fin 1) k)
      = V c main_v24 (ix2 (0 : Fin 1) k) := fun k => by
    show V c main_v24 (((cfg1.win 3).blk t).view.emb (ix2 (0 : Fin 1) k)) = _
    refine congrArg (V c main_v24) (funext fun a => Fin.ext ?_)
    match a with
    | ⟨0, _⟩ =>
      show win1_3.index t (0 : Fin 2) * 1 + 1 * 0 = 0
      omega
    | ⟨1, _⟩ =>
      show win1_3.index t (1 : Fin 2) * 100 + 1 * k.val = k.val
      omega
  have h4 : ∀ (k : Fin 100), iblk1 V c 4 t (ix2 k q)
      = V c main_v20 (ix2 k ((((cfg1.win 7).blk t).view.emb (ix2 y q)) 1)) := fun k => by
    show V c main_v20 (((cfg1.win 4).blk t).view.emb (ix2 k q)) = _
    refine congrArg (V c main_v20) (funext fun a => Fin.ext ?_)
    match a with
    | ⟨0, _⟩ =>
      show win1_4.index t (0 : Fin 2) * 100 + 1 * k.val = k.val
      omega
    | ⟨1, _⟩ =>
      show win1_4.index t (1 : Fin 2) * 50 + 1 * q.val = win1_7.index t (1 : Fin 2) * 50 + 1 * q.val
      omega
  have h5 : ∀ (k : Fin 50), iblk1 V c 5 t (ix2 k q)
      = V c main_v21 (ix2 k ((((cfg1.win 7).blk t).view.emb (ix2 y q)) 1)) := fun k => by
    show V c main_v21 (((cfg1.win 5).blk t).view.emb (ix2 k q)) = _
    refine congrArg (V c main_v21) (funext fun a => Fin.ext ?_)
    match a with
    | ⟨0, _⟩ =>
      show win1_5.index t (0 : Fin 2) * 50 + 1 * k.val = k.val
      omega
    | ⟨1, _⟩ =>
      show win1_5.index t (1 : Fin 2) * 50 + 1 * q.val = win1_7.index t (1 : Fin 2) * 50 + 1 * q.val
      omega
  have h6 : iblk1 V c 6 t (ix2 (0 : Fin 1) q)
      = V c main_v28 (ix2 (0 : Fin 1) ((((cfg1.win 7).blk t).view.emb (ix2 y q)) 1)) := by
    show V c main_v28 (((cfg1.win 6).blk t).view.emb (ix2 (0 : Fin 1) q)) = _
    refine congrArg (V c main_v28) (funext fun a => Fin.ext ?_)
    match a with
    | ⟨0, _⟩ =>
      show win1_6.index t (0 : Fin 2) * 1 + 1 * 0 = 0
      omega
    | ⟨1, _⟩ =>
      show win1_6.index t (1 : Fin 2) * 50 + 1 * q.val = win1_7.index t (1 : Fin 2) * 50 + 1 * q.val
      omega
  simp only [h0, h1, h2, h3, h4, h5, h6]
  rfl

/-- An index of the result array is in point `t`'s block iff each coordinate is in the block's range. -/
theorem mem_blk (t : Fin cfg1.N) (i : S50000x50.Idx) :
    i ∈ ((cfg1.win 7).blk t).view.set ↔ ∀ a : Fin 2, win1_7.index t a * S5000x50.size a ≤ (i a).val
      ∧ (i a).val < win1_7.index t a * S5000x50.size a + S5000x50.size a := by
  show i ∈ ((View.whole main_v34).slice (win1_7.rect t)).set ↔ _
  rw [View.set_slice_whole, Rect.mem_set_unit]
  exact Iff.rfl

/-- The 10 row blocks tile the result array. -/
theorem cover (i : S50000x50.Idx) :
    ∃ t : Fin cfg1.N, (cfg1.win 7).flush t = true ∧ i ∈ ((cfg1.win 7).blk t).view.set := by
  have hi0 : (i 0).val < 50000 := (i 0).isLt
  have hi1 : (i 1).val < 50 := (i 1).isLt
  obtain ⟨t, ht⟩ := idx_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 50 ≤ (i 1).val ∧ (i 1).val < win1_7.index t (1 : Fin 2) * 50 + 50
    omega

/-- THE RESULT ARRAY after the call: `G` of the arrays as the call finds them. -/
theorem final (c : Dev nD) :
    (dat1 V c).arrAt 7 cfg1.N
      = G (V c main_arg0) (V c main_v33) (V c main_arg4) (V c main_v24) (V c main_v20) (V c main_v21) (V c main_v28) :=
  (dat1 V c).arrAt_eq_of_cover 7 _ (fun t _ => flushed_eq V c t) cover

end Cert.KernelIdeal.Reg1

end
-- ==== Proof.Region2.lean ====
/-
  The pair branch: the third call's result array as one function of the arrays it reads.

  The call cuts the 500000 pair rows into 100 blocks of 5000: the two gathered atom-row arrays and the pair features
  move with the result block, the five weight matrices and the three bias rows are read whole at every block. Entry
  `(r, c)` of the result is the body's value on pair row `r`; the 100 blocks tile the array.
-/
import proofs.«142182_j14705968022036_1_alg».proof.Proof.Gen.KernelIdeal.Frame
import proofs.«142182_j14705968022036_1_alg».proof.Proof.KernelPay
import proofs.«142182_j14705968022036_1_alg».proof.Proof.Spec
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen Cert.KernelIdeal.Pay Cert.Weave
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The result array, entry `(r, c)`: with `u`, `v` the two gathered atom rows of pair `r`, the pair step in the order
    `(u, v)` plus the pair step in the order `(v, u)`, against the first output weight block, plus the projected pair
    features against the second, plus the bias, clipped. -/
def g (ai aj : FVec Ideal S500000x75 .f32) (pf : FVec Ideal S500000x14 .f32) (Wa Wb : FVec Ideal S75x50 .f32)
    (bap : FVec Ideal S1x50 .f32) (Wpp : FVec Ideal S14x50 .f32) (bpp : FVec Ideal S1x50 .f32)
    (Wo1 Wo2 : FVec Ideal S50x50 .f32) (bpo : FVec Ideal S1x50 .f32) (r : Fin 500000) (q : Fin 50) : Ideal .f32 :=
  relu ((rowdot (fun k : Fin 50 =>
            relu ((rowdot (fun j : Fin 75 => ai (ix2 r j)) (fun j => Wa (ix2 j k))
                + rowdot (fun j : Fin 75 => aj (ix2 r j)) (fun j => Wb (ix2 j k))) + bap (ix2 (0 : Fin 1) k))
            + relu ((rowdot (fun j : Fin 75 => aj (ix2 r j)) (fun j => Wa (ix2 j k))
                + rowdot (fun j : Fin 75 => ai (ix2 r j)) (fun j => Wb (ix2 j k))) + bap (ix2 (0 : Fin 1) k)))
          (fun k => Wo1 (ix2 k q))
        + rowdot (fun k : Fin 50 =>
            relu (rowdot (fun j : Fin 14 => pf (ix2 r j)) (fun j => Wpp (ix2 j k)) + bpp (ix2 (0 : Fin 1) k)))
          (fun k => Wo2 (ix2 k q)))
      + bpo (ix2 (0 : Fin 1) q))

/-- The same as an array. -/
def G (ai aj : FVec Ideal S500000x75 .f32) (pf : FVec Ideal S500000x14 .f32) (Wa Wb : FVec Ideal S75x50 .f32)
    (bap : FVec Ideal S1x50 .f32) (Wpp : FVec Ideal S14x50 .f32) (bpp : FVec Ideal S1x50 .f32)
    (Wo1 Wo2 : FVec Ideal S50x50 .f32) (bpo : FVec Ideal S1x50 .f32) :
    FVec Ideal S500000x50 .f32 :=
  fun i => g ai aj pf Wa Wb bap Wpp bpp Wo1 Wo2 bpo (i 0) (i 1)

/-- The printed index maps over the grid: the three row-blocked inputs move with the result block; every other window
    stays at the origin. -/
theorem idx_facts : ∀ t : Fin cfg2.N,
    win2_0.index t (0 : Fin 2) = win2_11.index t (0 : Fin 2)
    ∧ win2_0.index t (1 : Fin 2) = 0
    ∧ win2_1.index t (0 : Fin 2) = win2_11.index t (0 : Fin 2)
    ∧ win2_1.index t (1 : Fin 2) = 0
    ∧ win2_2.index t (0 : Fin 2) = win2_11.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (1 : Fin 2) = 0
    ∧ win2_11.index t (0 : Fin 2) ≤ 99 :=
  (by decide +kernel : ∀ t : Fin grid2.N, _)

/-- Every row block is some point's. -/
theorem idx_onto : ∀ q0 : Fin 100, ∃ t : Fin cfg2.N, win2_11.index t = ![q0.val, 0] :=
  (by decide +kernel : ∀ q0 : Fin 100, ∃ t : Fin grid2.N, win2_11.index t = ![q0.val, 0])

set_option maxHeartbeats 4000000 in
/-- WHAT POINT `t` WRITES BACK is block `t` of `G` of the arrays as the call finds them. -/
theorem flushed_eq (c : Dev nD) (t : Fin cfg2.N) :
    (dat2 V c).flushed 11 t = ((cfg2.win 11).blk t).view.read (Elt Ideal)
      (G (V c main_v10) (V c main_v17) (V c main_arg1) (V c main_v18) (V c main_v19) (V c main_v26) (V c main_arg12)
      (V c main_v27) (V c main_v22) (V c main_v23) (V c main_v29)) := by
  show (cfg2.win 11).cut (grid2.coords t) ((dat2 V c).after 11 t) = _
  rw [after2_11]
  unfold out2_11
  rw [View.canon_unit_zero hz]
  simp only [View.ld_unit_zero (S := S5000x75) hz, View.ld_unit_zero (S := S5000x14) hz,
    View.ld_unit_zero (S := S75x50) hz, View.ld_unit_zero (S := S14x50) hz, View.ld_unit_zero (S := S50x50) hz,
    View.ld_unit_zero (S := S1x50) hz]
  obtain ⟨e0, e1, e2, e3, e4, e5, e6, e7, e8, e9, e10, e11, e12, e13, e14, e15, e16, e17, e18, e19, e20, e21, e22, e23⟩ := idx_facts t
  funext j
  obtain ⟨y, q, rfl⟩ : ∃ (y : Fin 5000) (q : Fin 50), j = ix2 y q := ⟨j 0, j 1, @eq_ix2 5000 50 j⟩
  show k2_pay1 (k2_pay4 (iblk2 V c 2 t)) (k2_pay7 (iblk2 V c 6 t)) (k2_pay8 (iblk2 V c 8 t)) (k2_pay9 (iblk2 V c 9 t))
      (k2_pay10 (iblk2 V c 0 t) (iblk2 V c 1 t) (iblk2 V c 3 t) (iblk2 V c 4 t) (iblk2 V c 5 t))
      (k2_pay11 (iblk2 V c 0 t) (iblk2 V c 1 t) (iblk2 V c 3 t) (iblk2 V c 4 t))
      (iblk2 V c 5 t) (iblk2 V c 7 t) (iblk2 V c 10 t) (ix2 y q)
    = G (V c main_v10) (V c main_v17) (V c main_arg1) (V c main_v18) (V c main_v19) (V c main_v26) (V c main_arg12)
      (V c main_v27) (V c main_v22) (V c main_v23) (V c main_v29)
      (((cfg2.win 11).blk t).view.emb (ix2 y q))
  refine (pay2_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) y q).trans ?_
  have h0 : ∀ (j : Fin 75), iblk2 V c 0 t (ix2 y j)
      = V c main_v10 (ix2 ((((cfg2.win 11).blk t).view.emb (ix2 y q)) 0) j) := fun j => by
    show V c main_v10 (((cfg2.win 0).blk t).view.emb (ix2 y j)) = _
    refine congrArg (V c main_v10) (funext fun a => Fin.ext ?_)
    match a with
    | ⟨0, _⟩ =>
      show win2_0.index t (0 : Fin 2) * 5000 + 1 * y.val = win2_11.index t (0 : Fin 2) * 5000 + 1 * y.val
      omega
    | ⟨1, _⟩ =>
      show win2_0.index t (1 : Fin 2) * 75 + 1 * j.val = j.val
      omega
  have h1 : ∀ (j : Fin 75), iblk2 V c 1 t (ix2 y j)
      = V c main_v17 (ix2 ((((cfg2.win 11).blk t).view.emb (ix2 y q)) 0) j) := fun j => by
    show V c main_v17 (((cfg2.win 1).blk t).view.emb (ix2 y j)) = _
    refine congrArg (V c main_v17) (funext fun a => Fin.ext ?_)
    match a with
    | ⟨0, _⟩ =>
      show win2_1.index t (0 : Fin 2) * 5000 + 1 * y.val = win2_11.index t (0 : Fin 2) * 5000 + 1 * y.val
      omega
    | ⟨1, _⟩ =>
      show win2_1.index t (1 : Fin 2) * 75 + 1 * j.val = j.val
      omega
  have h2 : ∀ (j : Fin 14), iblk2 V c 2 t (ix2 y j)
      = V c main_arg1 (ix2 ((((cfg2.win 11).blk t).view.emb (ix2 y q)) 0) j) := fun j => by
    show V c main_arg1 (((cfg2.win 2).blk t).view.emb (ix2 y j)) = _
    refine congrArg (V c main_arg1) (funext fun a => Fin.ext ?_)
    match a with
    | ⟨0, _⟩ =>
      show win2_2.index t (0 : Fin 2) * 5000 + 1 * y.val = win2_11.index t (0 : Fin 2) * 5000 + 1 * y.val
      omega
    | ⟨1, _⟩ =>
      show win2_2.index t (1 : Fin 2) * 14 + 1 * j.val = j.val
      omega
  have h3 : ∀ (j : Fin 75) (k : Fin 50), iblk2 V c 3 t (ix2 j k)
      = V c main_v18 (ix2 j k) := fun j k => by
    show V c main_v18 (((cfg2.win 3).blk t).view.emb (ix2 j k)) = _
    refine congrArg (V c main_v18) (funext fun a => Fin.ext ?_)
    match a with
    | ⟨0, _⟩ =>
      show win2_3.index t (0 : Fin 2) * 75 + 1 * j.val = j.val
      omega
    | ⟨1, _⟩ =>
      show win2_3.index t (1 : Fin 2) * 50 + 1 * k.val = k.val
      omega
  have h4 : ∀ (j : Fin 75) (k : Fin 50), iblk2 V c 4 t (ix2 j k)
      = V c main_v19 (ix2 j k) := fun j k => by
    show V c main_v19 (((cfg2.win 4).blk t).view.emb (ix2 j k)) = _
    refine congrArg (V c main_v19) (funext fun a => Fin.ext ?_)
    match a with
    | ⟨0, _⟩ =>
      show win2_4.index t (0 : Fin 2) * 75 + 1 * j.val = j.val
      omega
    | ⟨1, _⟩ =>
      show win2_4.index t (1 : Fin 2) * 50 + 1 * k.val = k.val
      omega
  have h5 : ∀ (k : Fin 50), iblk2 V c 5 t (ix2 (0 : Fin 1) k)
      = V c main_v26 (ix2 (0 : Fin 1) k) := fun k => by
    show V c main_v26 (((cfg2.win 5).blk t).view.emb (ix2 (0 : Fin 1) k)) = _
    refine congrArg (V c main_v26) (funext fun a => Fin.ext ?_)
    match a with
    | ⟨0, _⟩ =>
      show win2_5.index t (0 : Fin 2) * 1 + 1 * 0 = 0
      omega
    | ⟨1, _⟩ =>
      show win2_5.index t (1 : Fin 2) * 50 + 1 * k.val = k.val
      omega
  have h6 : ∀ (j : Fin 14) (k : Fin 50), iblk2 V c 6 t (ix2 j k)
      = V c main_arg12 (ix2 j k) := fun j k => by
    show V c main_arg12 (((cfg2.win 6).blk t).view.emb (ix2 j k)) = _
    refine congrArg (V c main_arg12) (funext fun a => Fin.ext ?_)
    match a with
    | ⟨0, _⟩ =>
      show win2_6.index t (0 : Fin 2) * 14 + 1 * j.val = j.val
      omega
    | ⟨1, _⟩ =>
      show win2_6.index t (1 : Fin 2) * 50 + 1 * k.val = k.val
      omega
  have h7 : ∀ (k : Fin 50), iblk2 V c 7 t (ix2 (0 : Fin 1) k)
      = V c main_v27 (ix2 (0 : Fin 1) k) := fun k => by
    show V c main_v27 (((cfg2.win 7).blk t).view.emb (ix2 (0 : Fin 1) k)) = _
    refine congrArg (V c main_v27) (funext fun a => Fin.ext ?_)
    match a with
    | ⟨0, _⟩ =>
      show win2_7.index t (0 : Fin 2) * 1 + 1 * 0 = 0
      omega
    | ⟨1, _⟩ =>
      show win2_7.index t (1 : Fin 2) * 50 + 1 * k.val = k.val
      omega
  have h8 : ∀ (k : Fin 50), iblk2 V c 8 t (ix2 k q)
      = V c main_v22 (ix2 k ((((cfg2.win 11).blk t).view.emb (ix2 y q)) 1)) := fun k => by
    show V c main_v22 (((cfg2.win 8).blk t).view.emb (ix2 k q)) = _
    refine congrArg (V c main_v22) (funext fun a => Fin.ext ?_)
    match a with
    | ⟨0, _⟩ =>
      show win2_8.index t (0 : Fin 2) * 50 + 1 * k.val = k.val
      omega
    | ⟨1, _⟩ =>
      show win2_8.index t (1 : Fin 2) * 50 + 1 * q.val = win2_11.index t (1 : Fin 2) * 50 + 1 * q.val
      omega
  have h9 : ∀ (k : Fin 50), iblk2 V c 9 t (ix2 k q)
      = V c main_v23 (ix2 k ((((cfg2.win 11).blk t).view.emb (ix2 y q)) 1)) := fun k => by
    show V c main_v23 (((cfg2.win 9).blk t).view.emb (ix2 k q)) = _
    refine congrArg (V c main_v23) (funext fun a => Fin.ext ?_)
    match a with
    | ⟨0, _⟩ =>
      show win2_9.index t (0 : Fin 2) * 50 + 1 * k.val = k.val
      omega
    | ⟨1, _⟩ =>
      show win2_9.index t (1 : Fin 2) * 50 + 1 * q.val = win2_11.index t (1 : Fin 2) * 50 + 1 * q.val
      omega
  have h10 : iblk2 V c 10 t (ix2 (0 : Fin 1) q)
      = V c main_v29 (ix2 (0 : Fin 1) ((((cfg2.win 11).blk t).view.emb (ix2 y q)) 1)) := by
    show V c main_v29 (((cfg2.win 10).blk t).view.emb (ix2 (0 : Fin 1) q)) = _
    refine congrArg (V c main_v29) (funext fun a => Fin.ext ?_)
    match a with
    | ⟨0, _⟩ =>
      show win2_10.index t (0 : Fin 2) * 1 + 1 * 0 = 0
      omega
    | ⟨1, _⟩ =>
      show win2_10.index t (1 : Fin 2) * 50 + 1 * q.val = win2_11.index t (1 : Fin 2) * 50 + 1 * q.val
      omega
  simp only [h0, h1, h2, h3, h4, h5, h6, h7, h8, h9, h10]
  rfl

/-- An index of the result array is in point `t`'s block iff each coordinate is in the block's range. -/
theorem mem_blk (t : Fin cfg2.N) (i : S500000x50.Idx) :
    i ∈ ((cfg2.win 11).blk t).view.set ↔ ∀ a : Fin 2, win2_11.index t a * S5000x50.size a ≤ (i a).val
      ∧ (i a).val < win2_11.index t a * S5000x50.size a + S5000x50.size a := by
  show i ∈ ((View.whole main_v35).slice (win2_11.rect t)).set ↔ _
  rw [View.set_slice_whole, Rect.mem_set_unit]
  exact Iff.rfl

/-- The 100 row blocks tile the result array. -/
theorem cover (i : S500000x50.Idx) :
    ∃ t : Fin cfg2.N, (cfg2.win 11).flush t = true ∧ i ∈ ((cfg2.win 11).blk t).view.set := by
  have hi0 : (i 0).val < 500000 := (i 0).isLt
  have hi1 : (i 1).val < 50 := (i 1).isLt
  obtain ⟨t, ht⟩ := idx_onto ⟨(i 0).val / 5000, by omega⟩
  have q0 : win2_11.index t (0 : Fin 2) = (i 0).val / 5000 := congrFun ht 0
  have q1 : win2_11.index t (1 : Fin 2) = 0 := congrFun ht 1
  refine ⟨t, flush2_11 t, ?_⟩
  rw [mem_blk]
  intro a
  match a with
  | ⟨0, _⟩ =>
    show win2_11.index t (0 : Fin 2) * 5000 ≤ (i 0).val ∧ (i 0).val < win2_11.index t (0 : Fin 2) * 5000 + 5000
    omega
  | ⟨1, _⟩ =>
    show win2_11.index t (1 : Fin 2) * 50 ≤ (i 1).val ∧ (i 1).val < win2_11.index t (1 : Fin 2) * 50 + 50
    omega

/-- THE RESULT ARRAY after the call: `G` of the arrays as the call finds them. -/
theorem final (c : Dev nD) :
    (dat2 V c).arrAt 11 cfg2.N
      = G (V c main_v10) (V c main_v17) (V c main_arg1) (V c main_v18) (V c main_v19) (V c main_v26) (V c main_arg12)
      (V c main_v27) (V c main_v22) (V c main_v23) (V c main_v29) :=
  (dat2 V c).arrAt_eq_of_cover 11 _ (fun t _ => flushed_eq V c t) cover

end Cert.KernelIdeal.Reg2

end
-- ==== Proof.LibRowGather.lean ====
/-
  A gather of whole rows read at an index.

  For an operand `[N, D]` and a column `[R, 1]` of start indices, the gather that collapses the row axis and keeps
  the whole row as its offset axis gives a result `[R, D]` whose entry `(p, j)` is the operand's entry `j` of the row
  the start index `idx[p, 0]` names, that index read signed and clamped into `[0, N − 1]`. The dimension numbers are
  the record `rowDims` below; a record with the same lists is one of them.
-/
import Idealize.ShloMosaic.PureOps.Ideal
import Idealize.ShloMosaic.Lib.ValueIdx

noncomputable section

namespace Cert.LibRowGather

open Idealize.ShloMosaic Idealize.ShloMosaic.ValueIdx

variable {α : Type}

/-- The dimension numbers of a gather of whole rows: operand `[N, D]`, start indices `[R, 1]`, result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(p, j)`: entry `j` of the operand's row `idx[p, 0]`, read signed and clamped. -/
theorem rowGather_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (p : Fin R) (j : Fin D) :
    Host.gather (rowDims N D R wf) x idx (ix2 p j)
      = x (ix2 (⟨min (idx (ix2 p (0 : Fin 1))).toInt.toNat (N - 1), by omega⟩ : Fin N) j) := by
  unfold Host.gather
  refine congrArg x (funext fun a => Fin.ext ?_)
  match a with
  | ⟨0, _⟩ =>
    show (rowDims N D R wf).start (ix2 p j) idx 0 + (rowDims N D R wf).batchCoord (ix2 p j) 0
      + (rowDims N D R wf).offCoord (ix2 p j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p j) ⟨List.idxOf (0 : Fin 2) (rowDims N D R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N D R wf).start (ix2 p j) idx 1 + (rowDims N D R wf).batchCoord (ix2 p j) 1
      + (rowDims N D R wf).offCoord (ix2 p j) 1 = j.val
    rw [GatherDims.batchCoord_eq_zero _ _ _ List.not_mem_nil]
    have hs : (rowDims N D R wf).start (ix2 p j) idx 1 = 0 := by
      unfold GatherDims.start
      rw [dif_neg (show ¬ (1 : Fin 2) ∈ (rowDims N D R wf).startIndexMap from fun h => absurd (congrArg Fin.val (List.mem_singleton.mp h)) Nat.one_ne_zero)]
    rw [hs]
    have hk : (1 : Fin 2) ∈ (rowDims N D R wf).sKept :=
      ((rowDims N D R wf).mem_sKept 1).2 ⟨fun h => absurd (congrArg Fin.val (List.mem_singleton.mp h)) Nat.one_ne_zero, List.not_mem_nil⟩
    unfold GatherDims.offCoord
    rw [dif_pos hk]
    simp only [Nat.zero_add, Nat.add_zero]
    rfl

/-- The same for ANY dimension record with those lists. -/
theorem gather_rows_apply {N D R w : Nat} (hN : 0 < N) (d : GatherDims ⟨2, ![N, D]⟩ ⟨2, ![R, 1]⟩ ⟨2, ![R, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![R, 1]⟩ w) (p : Fin R) (j : Fin D) :
    Host.gather d x idx (ix2 p j)
      = x (ix2 (⟨min (idx (ix2 p (0 : Fin 1))).toInt.toNat (N - 1), by omega⟩ : Fin N) j) := by
  obtain ⟨od, cd, ob, sb, sm, iv, ss, wf⟩ := d
  dsimp only at h1 h2 h3 h4 h5 h6 h7
  subst h1 h2 h3 h4 h5 h6 h7
  exact rowGather_apply hN wf x idx p j

end Cert.LibRowGather

end
-- ==== Proof.HostReads.lean ====
/-
  What the host operations leave for the three calls to read.

  Before the first call the host cuts the two index columns out of the pair table, wraps negative indices, gathers
  the two atom rows of every pair, cuts each of the three split weight matrices into its two row blocks, and lays
  every bias vector out as a one-row matrix. Read at an index: a gathered array at `(p, j)` is entry `j` of the atom
  row the pair's index word selects; a weight block at `(k, c)` is the whole matrix at `(offset + k, c)`; a bias row
  at `(0, c)` is the vector's entry `c`. No host operation and no call writes an argument.
-/
import proofs.«142182_j14705968022036_1_alg».proof.Proof.Gen.KernelIdeal.Frame
import proofs.«142182_j14705968022036_1_alg».proof.Proof.LibRowGather
import proofs.«142182_j14705968022036_1_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384
set_option maxHeartbeats 4000000

noncomputable section

namespace Cert.KernelIdeal.HostSide

open Cert.KernelIdeal Cert.KernelIdeal.Gen Cert.Weave Cert.LibRowGather
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Before the first call -/

theorem W1_arg0 (c : Dev nD) :
    W1 m ρ c (Proc.devRef .tc main_arg0) = m ((c : Thread nD τ).loc main_arg0) := by
  show StableHlo.after hostOps0 (W0 m ρ c) (Proc.devRef .tc main_arg0) = _
  dsimp only [hostOps0]
  after_results

theorem W1_arg1 (c : Dev nD) :
    W1 m ρ c (Proc.devRef .tc main_arg1) = m ((c : Thread nD τ).loc main_arg1) := by
  show StableHlo.after hostOps0 (W0 m ρ c) (Proc.devRef .tc main_arg1) = _
  dsimp only [hostOps0]
  after_results

theorem W1_arg2 (c : Dev nD) :
    W1 m ρ c (Proc.devRef .tc main_arg2) = m ((c : Thread nD τ).loc main_arg2) := by
  show StableHlo.after hostOps0 (W0 m ρ c) (Proc.devRef .tc main_arg2) = _
  dsimp only [hostOps0]
  after_results

theorem W1_arg4 (c : Dev nD) :
    W1 m ρ c (Proc.devRef .tc main_arg4) = m ((c : Thread nD τ).loc main_arg4) := by
  show StableHlo.after hostOps0 (W0 m ρ c) (Proc.devRef .tc main_arg4) = _
  dsimp only [hostOps0]
  after_results

theorem W1_arg6 (c : Dev nD) :
    W1 m ρ c (Proc.devRef .tc main_arg6) = m ((c : Thread nD τ).loc main_arg6) := by
  show StableHlo.after hostOps0 (W0 m ρ c) (Proc.devRef .tc main_arg6) = _
  dsimp only [hostOps0]
  after_results

theorem W1_arg12 (c : Dev nD) :
    W1 m ρ c (Proc.devRef .tc main_arg12) = m ((c : Thread nD τ).loc main_arg12) := by
  show StableHlo.after hostOps0 (W0 m ρ c) (Proc.devRef .tc main_arg12) = _
  dsimp only [hostOps0]
  after_results

/-- A bias vector laid out as a one-row matrix, at `(0, q)`: its entry `q`. -/
theorem W1_v24_apply (c : Dev nD) (q : Fin 100) :
    W1 m ρ c (Proc.devRef .tc main_v24) (ix2 (0 : Fin 1) q) = m ((c : Thread nD τ).loc main_arg5) (ix1 q) := by
  show StableHlo.after hostOps0 (W0 m ρ c) (Proc.devRef .tc main_v24) (ix2 (0 : Fin 1) q) = _
  dsimp only [hostOps0]
  after_results
  exact shapeCast_a_1a_apply _ _ 0 q

theorem W1_v25_apply (c : Dev nD) (q : Fin 50) :
    W1 m ρ c (Proc.devRef .tc main_v25) (ix2 (0 : Fin 1) q) = m ((c : Thread nD τ).loc main_arg7) (ix1 q) := by
  show StableHlo.after hostOps0 (W0 m ρ c) (Proc.devRef .tc main_v25) (ix2 (0 : Fin 1) q) = _
  dsimp only [hostOps0]
  after_results
  exact shapeCast_a_1a_apply _ _ 0 q

theorem W1_v26_apply (c : Dev nD) (q : Fin 50) :
    W1 m ρ c (Proc.devRef .tc main_v26) (ix2 (0 : Fin 1) q) = m ((c : Thread nD τ).loc main_arg11) (ix1 q) := by
  show StableHlo.after hostOps0 (W0 m ρ c) (Proc.devRef .tc main_v26) (ix2 (0 : Fin 1) q) = _
  dsimp only [hostOps0]
  after_results
  exact shapeCast_a_1a_apply _ _ 0 q

theorem W1_v27_apply (c : Dev nD) (q : Fin 50) :
    W1 m ρ c (Proc.devRef .tc main_v27) (ix2 (0 : Fin 1) q) = m ((c : Thread nD τ).loc main_arg13) (ix1 q) := by
  show StableHlo.after hostOps0 (W0 m ρ c) (Proc.devRef .tc main_v27) (ix2 (0 : Fin 1) q) = _
  dsimp only [hostOps0]
  after_results
  exact shapeCast_a_1a_apply _ _ 0 q

theorem W1_v28_apply (c : Dev nD) (q : Fin 50) :
    W1 m ρ c (Proc.devRef .tc main_v28) (ix2 (0 : Fin 1) q) = m ((c : Thread nD τ).loc main_arg9) (ix1 q) := by
  show StableHlo.after hostOps0 (W0 m ρ c) (Proc.devRef .tc main_v28) (ix2 (0 : Fin 1) q) = _
  dsimp only [hostOps0]
  after_results
  exact shapeCast_a_1a_apply _ _ 0 q

theorem W1_v29_apply (c : Dev nD) (q : Fin 50) :
    W1 m ρ c (Proc.devRef .tc main_v29) (ix2 (0 : Fin 1) q) = m ((c : Thread nD τ).loc main_arg15) (ix1 q) := by
  show StableHlo.after hostOps0 (W0 m ρ c) (Proc.devRef .tc main_v29) (ix2 (0 : Fin 1) q) = _
  dsimp only [hostOps0]
  after_results
  exact shapeCast_a_1a_apply _ _ 0 q

/-- A row block of a weight matrix, at `(j, k)`: the whole matrix at `(offset + j, k)`. -/
theorem W1_v18_apply (c : Dev nD) (j : Fin 75) (k : Fin 50) :
    W1 m ρ c (Proc.devRef .tc main_v18) (ix2 j k)
      = m ((c : Thread nD τ).loc main_arg10) (ix2 (⟨j.val, by omega⟩ : Fin 150) k) := by
  show StableHlo.after hostOps0 (W0 m ρ c) (Proc.devRef .tc main_v18) (ix2 j k) = _
  dsimp only [hostOps0]
  after_results
  exact extractStridedSlice_apply _ _ _ (ix2 j k) _ (fun a => match a with
    | ⟨0, _⟩ => by show j.val = 0 + j.val; omega
    | ⟨1, _⟩ => by show k.val = 0 + k.val; omega)

theorem W1_v19_apply (c : Dev nD) (j : Fin 75) (k : Fin 50) :
    W1 m ρ c (Proc.devRef .tc main_v19) (ix2 j k)
      = m ((c : Thread nD τ).loc main_arg10) (ix2 (⟨75 + j.val, by omega⟩ : Fin 150) k) := by
  show StableHlo.after hostOps0 (W0 m ρ c) (Proc.devRef .tc main_v19) (ix2 j k) = _
  dsimp only [hostOps0]
  after_results
  exact extractStridedSlice_apply _ _ _ (ix2 j k) _ (fun a => match a with
    | ⟨0, _⟩ => by show 75 + j.val = 75 + j.val; omega
    | ⟨1, _⟩ => by show k.val = 0 + k.val; omega)

theorem W1_v20_apply (c : Dev nD) (j : Fin 100) (k : Fin 50) :
    W1 m ρ c (Proc.devRef .tc main_v20) (ix2 j k)
      = m ((c : Thread nD τ).loc main_arg8) (ix2 (⟨j.val, by omega⟩ : Fin 150) k) := by
  show StableHlo.after hostOps0 (W0 m ρ c) (Proc.devRef .tc main_v20) (ix2 j k) = _
  dsimp only [hostOps0]
  after_results
  exact extractStridedSlice_apply _ _ _ (ix2 j k) _ (fun a => match a with
    | ⟨0, _⟩ => by show j.val = 0 + j.val; omega
    | ⟨1, _⟩ => by show k.val = 0 + k.val; omega)

theorem W1_v21_apply (c : Dev nD) (j : Fin 50) (k : Fin 50) :
    W1 m ρ c (Proc.devRef .tc main_v21) (ix2 j k)
      = m ((c : Thread nD τ).loc main_arg8) (ix2 (⟨100 + j.val, by omega⟩ : Fin 150) k) := by
  show StableHlo.after hostOps0 (W0 m ρ c) (Proc.devRef .tc main_v21) (ix2 j k) = _
  dsimp only [hostOps0]
  after_results
  exact extractStridedSlice_apply _ _ _ (ix2 j k) _ (fun a => match a with
    | ⟨0, _⟩ => by show 100 + j.val = 100 + j.val; omega
    | ⟨1, _⟩ => by show k.val = 0 + k.val; omega)

theorem W1_v22_apply (c : Dev nD) (j : Fin 50) (k : Fin 50) :
    W1 m ρ c (Proc.devRef .tc main_v22) (ix2 j k)
      = m ((c : Thread nD τ).loc main_arg14) (ix2 (⟨j.val, by omega⟩ : Fin 100) k) := by
  show StableHlo.after hostOps0 (W0 m ρ c) (Proc.devRef .tc main_v22) (ix2 j k) = _
  dsimp only [hostOps0]
  after_results
  exact extractStridedSlice_apply _ _ _ (ix2 j k) _ (fun a => match a with
    | ⟨0, _⟩ => by show j.val = 0 + j.val; omega
    | ⟨1, _⟩ => by show k.val = 0 + k.val; omega)

theorem W1_v23_apply (c : Dev nD) (j : Fin 50) (k : Fin 50) :
    W1 m ρ c (Proc.devRef .tc main_v23) (ix2 j k)
      = m ((c : Thread nD τ).loc main_arg14) (ix2 (⟨50 + j.val, by omega⟩ : Fin 100) k) := by
  show StableHlo.after hostOps0 (W0 m ρ c) (Proc.devRef .tc main_v23) (ix2 j k) = _
  dsimp only [hostOps0]
  after_results
  exact extractStridedSlice_apply _ _ _ (ix2 j k) _ (fun a => match a with
    | ⟨0, _⟩ => by show 50 + j.val = 50 + j.val; omega
    | ⟨1, _⟩ => by show k.val = 0 + k.val; omega)

/-- Column `s` of the pair table as a vector, at `p`: the table at `(p, s)`. -/
theorem col_apply (x3 : IVec S500000x2 32) (s : Fin 2) (h1 : S500000x2.Slices ![0, s.val] S500000x1)
    (h2 : S500000x1.ShapeCasts S500000) (p : Fin 500000) :
    shapeCast S500000 (extractStridedSlice S500000x1 ![0, s.val] x3 h1) h2 (ix1 p) = x3 (ix2 p s) := by
  rw [shapeCast_apply (extractStridedSlice S500000x1 ![0, s.val] x3 h1) h2 (ix1 p) (ix2 p (0 : Fin 1))
    (by rw [Shape.rowMajor_val_two, Shape.rowMajor_val_one]; show p.val * 1 + 0 = p.val; omega)]
  exact extractStridedSlice_apply _ _ _ (ix2 p (0 : Fin 1)) _ (fun a => match a with
    | ⟨0, _⟩ => by show p.val = 0 + p.val; omega
    | ⟨1, _⟩ => by show s.val = s.val + 0; omega)

/-- The wrapped index column, at `(p, 0)`: the wrapped index word of pair `p`. -/
theorem wrapIdx_apply (v1 : IVec S500000 32) (p : Fin 500000) :
    broadcastInDim S500000x1 ![0] bcast_S500000_S500000x1_0
        (select (cmpi .slt v1 (broadcastInDim S500000 ![] bcast_S_S500000 (constantI S_ 32 0#32)))
          (addi v1 (broadcastInDim S500000 ![] bcast_S_S500000 (constantI S_ 32 50000#32))) v1) (ix2 p (0 : Fin 1))
      = wrap (v1 (ix1 p)) := by
  rw [broadcastInDim_apply _ bcast_S500000_S500000x1_0 _ (ix2 p (0 : Fin 1)) (ix1 p) (fun a => match a with
    | ⟨0, _⟩ => by show p.val = if (500000 : Nat) = 1 then 0 else p.val; rw [if_neg (by decide)])]
  rfl

/-- The first gathered atom-row array, at `(p, j)`: entry `j` of the atom row the pair's first index word selects. -/
theorem W1_v10_apply (c : Dev nD) (p : Fin 500000) (j : Fin 75) :
    W1 m ρ c (Proc.devRef .tc main_v10) (ix2 p j)
      = m ((c : Thread nD τ).loc main_arg0) (ix2 (row (m ((c : Thread nD τ).loc main_arg3) (ix2 p (0 : Fin 2)))) j) := by
  show StableHlo.after hostOps0 (W0 m ρ c) (Proc.devRef .tc main_v10) (ix2 p j) = _
  dsimp only [hostOps0]
  after_results
  rw [gather_rows_apply (by decide) gather_S50000x75_S500000x1_S500000x75_1_0_n_n_0_1_175 rfl rfl rfl rfl rfl rfl rfl]
  refine congrArg (fun r : Fin 50000 => m ((c : Thread nD τ).loc main_arg0) (ix2 r j)) (Fin.ext ?_)
  show min (BitVec.toInt _).toNat (50000 - 1)
    = min (wrap (m ((c : Thread nD τ).loc main_arg3) (ix2 p (0 : Fin 2)))).toInt.toNat 49999
  rw [wrapIdx_apply]
  refine congrArg (fun a : BitVec 32 => min (wrap a).toInt.toNat 49999) ?_
  exact col_apply (m ((c : Thread nD τ).loc main_arg3)) (0 : Fin 2) _ _ p

/-- The second gathered atom-row array, at `(p, j)`: entry `j` of the atom row the pair's second index word selects. -/
theorem W1_v17_apply (c : Dev nD) (p : Fin 500000) (j : Fin 75) :
    W1 m ρ c (Proc.devRef .tc main_v17) (ix2 p j)
      = m ((c : Thread nD τ).loc main_arg0) (ix2 (row (m ((c : Thread nD τ).loc main_arg3) (ix2 p (1 : Fin 2)))) j) := by
  show StableHlo.after hostOps0 (W0 m ρ c) (Proc.devRef .tc main_v17) (ix2 p j) = _
  dsimp only [hostOps0]
  after_results
  rw [gather_rows_apply (by decide) gather_S50000x75_S500000x1_S500000x75_1_0_n_n_0_1_175 rfl rfl rfl rfl rfl rfl rfl]
  refine congrArg (fun r : Fin 50000 => m ((c : Thread nD τ).loc main_arg0) (ix2 r j)) (Fin.ext ?_)
  show min (BitVec.toInt _).toNat (50000 - 1)
    = min (wrap (m ((c : Thread nD τ).loc main_arg3) (ix2 p (1 : Fin 2)))).toInt.toNat 49999
  rw [wrapIdx_apply]
  refine congrArg (fun a : BitVec 32 => min (wrap a).toInt.toNat 49999) ?_
  exact col_apply (m ((c : Thread nD τ).loc main_arg3)) (1 : Fin 2) _ _ p

/-! ## At the second call: the host operations between the first two calls write only the zero array, the index
    column and the scatter-add's result -/

theorem W3_arg0 (c : Dev nD) :
    W3 m ρ c (Proc.devRef .tc main_arg0) = W1 m ρ c (Proc.devRef .tc main_arg0) := by
  show StableHlo.after hostOps1 (W2 m ρ c) (Proc.devRef .tc main_arg0) = _
  dsimp only [hostOps1]
  after_results
  exact W2_of_ne m ρ c main_arg0 (by decide)

theorem W3_arg4 (c : Dev nD) :
    W3 m ρ c (Proc.devRef .tc main_arg4) = W1 m ρ c (Proc.devRef .tc main_arg4) := by
  show StableHlo.after hostOps1 (W2 m ρ c) (Proc.devRef .tc main_arg4) = _
  dsimp only [hostOps1]
  after_results
  exact W2_of_ne m ρ c main_arg4 (by decide)

theorem W3_v24 (c : Dev nD) :
    W3 m ρ c (Proc.devRef .tc main_v24) = W1 m ρ c (Proc.devRef .tc main_v24) := by
  show StableHlo.after hostOps1 (W2 m ρ c) (Proc.devRef .tc main_v24) = _
  dsimp only [hostOps1]
  after_results
  exact W2_of_ne m ρ c main_v24 (by decide)

theorem W3_v20 (c : Dev nD) :
    W3 m ρ c (Proc.devRef .tc main_v20) = W1 m ρ c (Proc.devRef .tc main_v20) := by
  show StableHlo.after hostOps1 (W2 m ρ c) (Proc.devRef .tc main_v20) = _
  dsimp only [hostOps1]
  after_results
  exact W2_of_ne m ρ c main_v20 (by decide)

theorem W3_v21 (c : Dev nD) :
    W3 m ρ c (Proc.devRef .tc main_v21) = W1 m ρ c (Proc.devRef .tc main_v21) := by
  show StableHlo.after hostOps1 (W2 m ρ c) (Proc.devRef .tc main_v21) = _
  dsimp only [hostOps1]
  after_results
  exact W2_of_ne m ρ c main_v21 (by decide)

theorem W3_v28 (c : Dev nD) :
    W3 m ρ c (Proc.devRef .tc main_v28) = W1 m ρ c (Proc.devRef .tc main_v28) := by
  show StableHlo.after hostOps1 (W2 m ρ c) (Proc.devRef .tc main_v28) = _
  dsimp only [hostOps1]
  after_results
  exact W2_of_ne m ρ c main_v28 (by decide)

/-- The summed pair projections the second call reads: the scatter-add, into a zero array, of the first call's
    result rows at the atoms the split column names. -/
theorem W3_v33 (c : Dev nD) :
    (W3 m ρ c (Proc.devRef .tc main_v33) : FVec Ideal S50000x50 .f32)
      = Host.scatterAdd scatter_S50000x50_S500000x1_S500000x50_1_0_0_1
          (broadcastInDim S50000x50 ![] bcast_S_S50000x50 (constant (F := Ideal) S_ .f32 0x00000000#32))
          (broadcastInDim S500000x1 ![0] bcast_S500000_S500000x1_0 (m ((c : Thread nD τ).loc main_arg2)))
          ((dat0 (V1 m ρ) c).arrAt 3 cfg0.N) := by
  show StableHlo.after hostOps1 (W2 m ρ c) (Proc.devRef .tc main_v33) = _
  dsimp only [hostOps1]
  after_results
  have h30 : W2 m ρ c (Proc.devRef .tc main_v30) = (dat0 (V1 m ρ) c).arrAt 3 cfg0.N := W2_arr m ρ c 3
  rw [h30, W2_of_ne m ρ c main_arg2 (by decide), W1_arg2 m ρ c]

/-! ## At the third call -/

theorem W4_v10 (c : Dev nD) :
    W4 m ρ c (Proc.devRef .tc main_v10) = W1 m ρ c (Proc.devRef .tc main_v10) := by
  rw [W4_of_ne m ρ c main_v10 (by decide)]
  show StableHlo.after hostOps1 (W2 m ρ c) (Proc.devRef .tc main_v10) = _
  dsimp only [hostOps1]
  after_results
  exact W2_of_ne m ρ c main_v10 (by decide)

theorem W4_v17 (c : Dev nD) :
    W4 m ρ c (Proc.devRef .tc main_v17) = W1 m ρ c (Proc.devRef .tc main_v17) := by
  rw [W4_of_ne m ρ c main_v17 (by decide)]
  show StableHlo.after hostOps1 (W2 m ρ c) (Proc.devRef .tc main_v17) = _
  dsimp only [hostOps1]
  after_results
  exact W2_of_ne m ρ c main_v17 (by decide)

theorem W4_v18 (c : Dev nD) :
    W4 m ρ c (Proc.devRef .tc main_v18) = W1 m ρ c (Proc.devRef .tc main_v18) := by
  rw [W4_of_ne m ρ c main_v18 (by decide)]
  show StableHlo.after hostOps1 (W2 m ρ c) (Proc.devRef .tc main_v18) = _
  dsimp only [hostOps1]
  after_results
  exact W2_of_ne m ρ c main_v18 (by decide)

theorem W4_v19 (c : Dev nD) :
    W4 m ρ c (Proc.devRef .tc main_v19) = W1 m ρ c (Proc.devRef .tc main_v19) := by
  rw [W4_of_ne m ρ c main_v19 (by decide)]
  show StableHlo.after hostOps1 (W2 m ρ c) (Proc.devRef .tc main_v19) = _
  dsimp only [hostOps1]
  after_results
  exact W2_of_ne m ρ c main_v19 (by decide)

theorem W4_v26 (c : Dev nD) :
    W4 m ρ c (Proc.devRef .tc main_v26) = W1 m ρ c (Proc.devRef .tc main_v26) := by
  rw [W4_of_ne m ρ c main_v26 (by decide)]
  show StableHlo.after hostOps1 (W2 m ρ c) (Proc.devRef .tc main_v26) = _
  dsimp only [hostOps1]
  after_results
  exact W2_of_ne m ρ c main_v26 (by decide)

theorem W4_arg12 (c : Dev nD) :
    W4 m ρ c (Proc.devRef .tc main_arg12) = W1 m ρ c (Proc.devRef .tc main_arg12) := by
  rw [W4_of_ne m ρ c main_arg12 (by decide)]
  show StableHlo.after hostOps1 (W2 m ρ c) (Proc.devRef .tc main_arg12) = _
  dsimp only [hostOps1]
  after_results
  exact W2_of_ne m ρ c main_arg12 (by decide)

theorem W4_v27 (c : Dev nD) :
    W4 m ρ c (Proc.devRef .tc main_v27) = W1 m ρ c (Proc.devRef .tc main_v27) := by
  rw [W4_of_ne m ρ c main_v27 (by decide)]
  show StableHlo.after hostOps1 (W2 m ρ c) (Proc.devRef .tc main_v27) = _
  dsimp only [hostOps1]
  after_results
  exact W2_of_ne m ρ c main_v27 (by decide)

theorem W4_v22 (c : Dev nD) :
    W4 m ρ c (Proc.devRef .tc main_v22) = W1 m ρ c (Proc.devRef .tc main_v22) := by
  rw [W4_of_ne m ρ c main_v22 (by decide)]
  show StableHlo.after hostOps1 (W2 m ρ c) (Proc.devRef .tc main_v22) = _
  dsimp only [hostOps1]
  after_results
  exact W2_of_ne m ρ c main_v22 (by decide)

theorem W4_v23 (c : Dev nD) :
    W4 m ρ c (Proc.devRef .tc main_v23) = W1 m ρ c (Proc.devRef .tc main_v23) := by
  rw [W4_of_ne m ρ c main_v23 (by decide)]
  show StableHlo.after hostOps1 (W2 m ρ c) (Proc.devRef .tc main_v23) = _
  dsimp only [hostOps1]
  after_results
  exact W2_of_ne m ρ c main_v23 (by decide)

theorem W4_v29 (c : Dev nD) :
    W4 m ρ c (Proc.devRef .tc main_v29) = W1 m ρ c (Proc.devRef .tc main_v29) := by
  rw [W4_of_ne m ρ c main_v29 (by decide)]
  show StableHlo.after hostOps1 (W2 m ρ c) (Proc.devRef .tc main_v29) = _
  dsimp only [hostOps1]
  after_results
  exact W2_of_ne m ρ c main_v29 (by decide)

/-- The pair features the third call reads are the argument: the first call only read them. -/
theorem W4_arg1 (c : Dev nD) :
    W4 m ρ c (Proc.devRef .tc main_arg1) = W1 m ρ c (Proc.devRef .tc main_arg1) := by
  rw [W4_of_ne m ρ c main_arg1 (by decide)]
  show StableHlo.after hostOps1 (W2 m ρ c) (Proc.devRef .tc main_arg1) = _
  dsimp only [hostOps1]
  after_results
  exact (W2_arr m ρ c 0).trans (((dat0 (V1 m ρ) c).arrAt_in 0 rfl _).trans (A_eq0 (V1 m ρ) c 0))

end Cert.KernelIdeal.HostSide

end
-- ==== Proof.Results.lean ====
/-
  The two results as arrays of the sixteen arguments.

  The atom result is `Weave.A` at every `(r, c)`, its summed pair projections being the scatter-add, into a zero array,
  of the projected pair rows at the atoms the split column names. The pair result is `Weave.P` at every `(p, c)`, the
  two atom rows of pair `p` being the ones its two index words select.
-/
import proofs.«142182_j14705968022036_1_alg».proof.Proof.Gen.KernelIdeal
import proofs.«142182_j14705968022036_1_alg».proof.Proof.Spec

noncomputable section

namespace Cert.Weave

open Cert.KernelIdeal Cert.KernelIdeal.Gen Idealize.ShloMosaic Idealize.ShloMosaic.ValueIdx

/-- Each atom's summed pair projections: the scatter-add, into a zero array, of the rows of `pa` at the atoms the
    split column names. -/
def segOf (split : IVec S500000 32) (pa : FVec Ideal S500000x50 .f32) : FVec Ideal S50000x50 .f32 :=
  Host.scatterAdd scatter_S50000x50_S500000x1_S500000x50_1_0_0_1
    (broadcastInDim S50000x50 ![] bcast_S_S50000x50 (constant S_ .f32 0x00000000#32))
    (broadcastInDim S500000x1 ![0] bcast_S500000_S500000x1_0 split) pa

/-- THE ATOM RESULT as an array. -/
def resA (af : FVec Ideal S50000x75 .f32) (Waa : FVec Ideal S75x100 .f32) (baa : FVec Ideal S100 .f32)
    (Wao : FVec Ideal S150x50 .f32) (bao : FVec Ideal S50 .f32) (pf : FVec Ideal S500000x14 .f32)
    (split : IVec S500000 32) (Wpa : FVec Ideal S14x50 .f32) (bpa : FVec Ideal S50 .f32) :
    FVec Ideal S50000x50 .f32 :=
  fun i => A af Waa baa Wao bao (segOf split (PAarr pf Wpa bpa)) (i 0) (i 1)

/-- THE PAIR RESULT as an array. -/
def resP (af : FVec Ideal S50000x75 .f32) (pf : FVec Ideal S500000x14 .f32) (atp : IVec S500000x2 32)
    (Wap : FVec Ideal S150x50 .f32) (bap : FVec Ideal S50 .f32) (Wpp : FVec Ideal S14x50 .f32)
    (bpp : FVec Ideal S50 .f32) (Wpo : FVec Ideal S100x50 .f32) (bpo : FVec Ideal S50 .f32) :
    FVec Ideal S500000x50 .f32 :=
  fun i => P af pf Wap bap Wpp bpp Wpo bpo (fun p => row (atp (ix2 p (0 : Fin 2))))
    (fun p => row (atp (ix2 p (1 : Fin 2)))) (i 0) (i 1)

end Cert.Weave

end
-- ==== Proof.KernelValue.lean ====
/-
  The idealized kernel's two results as functions of its arguments.

  The atom result is the second call's output array and the pair result the third's; the third call does not touch
  the second's output. Each call's output is its body's value at every row (the three calls' blocks tile their
  arrays), read at what the call finds in the buffers it reads: the arguments themselves, the weight blocks and bias
  rows the host cut out of them, the gathered atom rows, and — for the atom branch — the scatter-add of the first
  call's output.
-/
import proofs.«142182_j14705968022036_1_alg».proof.Proof.Gen.KernelIdeal.Frame
import proofs.«142182_j14705968022036_1_alg».proof.Proof.Region0
import proofs.«142182_j14705968022036_1_alg».proof.Proof.Region1
import proofs.«142182_j14705968022036_1_alg».proof.Proof.Region2
import proofs.«142182_j14705968022036_1_alg».proof.Proof.HostReads
import proofs.«142182_j14705968022036_1_alg».proof.Proof.Results

set_option maxRecDepth 16384

noncomputable section

namespace Cert.KernelIdeal.KValue

open Cert.KernelIdeal Cert.KernelIdeal.Gen Cert.KernelIdeal.HostSide Cert.Weave
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first call's output: the projected pair features of every pair. -/
theorem pa_k (c : Dev nD) :
    (dat0 (V1 m ρ) c).arrAt 3 cfg0.N = PAarr (m ((c : Thread nD τ).loc main_arg1)) (m ((c : Thread nD τ).loc main_arg6)) (m ((c : Thread nD τ).loc main_arg7)) := by
  rw [Reg0.final (V1 m ρ) c]
  have h1 : V1 m ρ c main_arg1 = (m ((c : Thread nD τ).loc main_arg1)) := W1_arg1 m ρ c
  have h6 : V1 m ρ c main_arg6 = (m ((c : Thread nD τ).loc main_arg6)) := W1_arg6 m ρ c
  have h25 : ∀ q : Fin 50, V1 m ρ c main_v25 (ix2 (0 : Fin 1) q) = (m ((c : Thread nD τ).loc main_arg7)) (ix1 q) := W1_v25_apply m ρ c
  funext i
  obtain ⟨r, q, rfl⟩ : ∃ (r : Fin 500000) (q : Fin 50), i = ix2 r q := ⟨i 0, i 1, @eq_ix2 500000 50 i⟩
  show Reg0.g (V1 m ρ c main_arg1) (V1 m ρ c main_arg6) (V1 m ρ c main_v25) r q
    = PA (m ((c : Thread nD τ).loc main_arg1)) (m ((c : Thread nD τ).loc main_arg6)) (m ((c : Thread nD τ).loc main_arg7)) r q
  unfold Reg0.g
  simp only [h1, h6, h25]
  rfl

/-- THE ATOM RESULT the kernel leaves. -/
theorem kernel_A (c : Dev nD) :
    W5 m ρ c (Proc.devRef .tc main_v34)
      = resA (m ((c : Thread nD τ).loc main_arg0)) (m ((c : Thread nD τ).loc main_arg4)) (m ((c : Thread nD τ).loc main_arg5)) (m ((c : Thread nD τ).loc main_arg8)) (m ((c : Thread nD τ).loc main_arg9)) (m ((c : Thread nD τ).loc main_arg1)) (m ((c : Thread nD τ).loc main_arg2)) (m ((c : Thread nD τ).loc main_arg6)) (m ((c : Thread nD τ).loc main_arg7)) := by
  have e : W5 m ρ c (Proc.devRef .tc main_v34) = (dat1 (V3 m ρ) c).arrAt 7 cfg1.N :=
    (W5_of_ne m ρ c main_v34 (by decide)).trans (W4_arr m ρ c 7)
  rw [e, Reg1.final (V3 m ρ) c]
  have h0 : V3 m ρ c main_arg0 = (m ((c : Thread nD τ).loc main_arg0)) := (W3_arg0 m ρ c).trans (W1_arg0 m ρ c)
  have h4 : V3 m ρ c main_arg4 = (m ((c : Thread nD τ).loc main_arg4)) := (W3_arg4 m ρ c).trans (W1_arg4 m ρ c)
  have h24 : ∀ k : Fin 100, V3 m ρ c main_v24 (ix2 (0 : Fin 1) k) = (m ((c : Thread nD τ).loc main_arg5)) (ix1 k) :=
    fun k => (congrFun (W3_v24 m ρ c) _).trans (W1_v24_apply m ρ c k)
  have h20 : ∀ (k : Fin 100) (q : Fin 50), V3 m ρ c main_v20 (ix2 k q)
      = (m ((c : Thread nD τ).loc main_arg8)) (ix2 (⟨k.val, by omega⟩ : Fin 150) q) :=
    fun k q => (congrFun (W3_v20 m ρ c) _).trans (W1_v20_apply m ρ c k q)
  have h21 : ∀ (k : Fin 50) (q : Fin 50), V3 m ρ c main_v21 (ix2 k q)
      = (m ((c : Thread nD τ).loc main_arg8)) (ix2 (⟨100 + k.val, by omega⟩ : Fin 150) q) :=
    fun k q => (congrFun (W3_v21 m ρ c) _).trans (W1_v21_apply m ρ c k q)
  have h28 : ∀ q : Fin 50, V3 m ρ c main_v28 (ix2 (0 : Fin 1) q) = (m ((c : Thread nD τ).loc main_arg9)) (ix1 q) :=
    fun q => (congrFun (W3_v28 m ρ c) _).trans (W1_v28_apply m ρ c q)
  have h33 : V3 m ρ c main_v33 = segOf (m ((c : Thread nD τ).loc main_arg2)) (PAarr (m ((c : Thread nD τ).loc main_arg1)) (m ((c : Thread nD τ).loc main_arg6)) (m ((c : Thread nD τ).loc main_arg7))) :=
    (W3_v33 m ρ c).trans (by rw [pa_k m ρ c]; rfl)
  funext i
  obtain ⟨r, q, rfl⟩ : ∃ (r : Fin 50000) (q : Fin 50), i = ix2 r q := ⟨i 0, i 1, @eq_ix2 50000 50 i⟩
  show Reg1.g (V3 m ρ c main_arg0) (V3 m ρ c main_v33) (V3 m ρ c main_arg4) (V3 m ρ c main_v24) (V3 m ρ c main_v20)
      (V3 m ρ c main_v21) (V3 m ρ c main_v28) r q
    = A (m ((c : Thread nD τ).loc main_arg0)) (m ((c : Thread nD τ).loc main_arg4)) (m ((c : Thread nD τ).loc main_arg5)) (m ((c : Thread nD τ).loc main_arg8)) (m ((c : Thread nD τ).loc main_arg9)) (segOf (m ((c : Thread nD τ).loc main_arg2)) (PAarr (m ((c : Thread nD τ).loc main_arg1)) (m ((c : Thread nD τ).loc main_arg6)) (m ((c : Thread nD τ).loc main_arg7)))) r q
  unfold Reg1.g
  simp only [h0, h4, h24, h20, h21, h28, h33]
  rfl

/-- THE PAIR RESULT the kernel leaves. -/
theorem kernel_P (c : Dev nD) :
    W5 m ρ c (Proc.devRef .tc main_v35)
      = resP (m ((c : Thread nD τ).loc main_arg0)) (m ((c : Thread nD τ).loc main_arg1)) (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e : W5 m ρ c (Proc.devRef .tc main_v35) = (dat2 (V4 m ρ) c).arrAt 11 cfg2.N := W5_arr m ρ c 11
  rw [e, Reg2.final (V4 m ρ) c]
  have h10 : ∀ (p : Fin 500000) (j : Fin 75), V4 m ρ c main_v10 (ix2 p j)
      = (m ((c : Thread nD τ).loc main_arg0)) (ix2 (row ((m ((c : Thread nD τ).loc main_arg3)) (ix2 p (0 : Fin 2)))) j) :=
    fun p j => (congrFun (W4_v10 m ρ c) _).trans (W1_v10_apply m ρ c p j)
  have h17 : ∀ (p : Fin 500000) (j : Fin 75), V4 m ρ c main_v17 (ix2 p j)
      = (m ((c : Thread nD τ).loc main_arg0)) (ix2 (row ((m ((c : Thread nD τ).loc main_arg3)) (ix2 p (1 : Fin 2)))) j) :=
    fun p j => (congrFun (W4_v17 m ρ c) _).trans (W1_v17_apply m ρ c p j)
  have h1 : V4 m ρ c main_arg1 = (m ((c : Thread nD τ).loc main_arg1)) := (W4_arg1 m ρ c).trans (W1_arg1 m ρ c)
  have h18 : ∀ (j : Fin 75) (k : Fin 50), V4 m ρ c main_v18 (ix2 j k)
      = (m ((c : Thread nD τ).loc main_arg10)) (ix2 (⟨j.val, by omega⟩ : Fin 150) k) :=
    fun j k => (congrFun (W4_v18 m ρ c) _).trans (W1_v18_apply m ρ c j k)
  have h19 : ∀ (j : Fin 75) (k : Fin 50), V4 m ρ c main_v19 (ix2 j k)
      = (m ((c : Thread nD τ).loc main_arg10)) (ix2 (⟨75 + j.val, by omega⟩ : Fin 150) k) :=
    fun j k => (congrFun (W4_v19 m ρ c) _).trans (W1_v19_apply m ρ c j k)
  have h26 : ∀ k : Fin 50, V4 m ρ c main_v26 (ix2 (0 : Fin 1) k) = (m ((c : Thread nD τ).loc main_arg11)) (ix1 k) :=
    fun k => (congrFun (W4_v26 m ρ c) _).trans (W1_v26_apply m ρ c k)
  have h12 : V4 m ρ c main_arg12 = (m ((c : Thread nD τ).loc main_arg12)) := (W4_arg12 m ρ c).trans (W1_arg12 m ρ c)
  have h27 : ∀ k : Fin 50, V4 m ρ c main_v27 (ix2 (0 : Fin 1) k) = (m ((c : Thread nD τ).loc main_arg13)) (ix1 k) :=
    fun k => (congrFun (W4_v27 m ρ c) _).trans (W1_v27_apply m ρ c k)
  have h22 : ∀ (k : Fin 50) (q : Fin 50), V4 m ρ c main_v22 (ix2 k q)
      = (m ((c : Thread nD τ).loc main_arg14)) (ix2 (⟨k.val, by omega⟩ : Fin 100) q) :=
    fun k q => (congrFun (W4_v22 m ρ c) _).trans (W1_v22_apply m ρ c k q)
  have h23 : ∀ (k : Fin 50) (q : Fin 50), V4 m ρ c main_v23 (ix2 k q)
      = (m ((c : Thread nD τ).loc main_arg14)) (ix2 (⟨50 + k.val, by omega⟩ : Fin 100) q) :=
    fun k q => (congrFun (W4_v23 m ρ c) _).trans (W1_v23_apply m ρ c k q)
  have h29 : ∀ q : Fin 50, V4 m ρ c main_v29 (ix2 (0 : Fin 1) q) = (m ((c : Thread nD τ).loc main_arg15)) (ix1 q) :=
    fun q => (congrFun (W4_v29 m ρ c) _).trans (W1_v29_apply m ρ c q)
  funext i
  obtain ⟨r, q, rfl⟩ : ∃ (r : Fin 500000) (q : Fin 50), i = ix2 r q := ⟨i 0, i 1, @eq_ix2 500000 50 i⟩
  show Reg2.g (V4 m ρ c main_v10) (V4 m ρ c main_v17) (V4 m ρ c main_arg1) (V4 m ρ c main_v18) (V4 m ρ c main_v19)
      (V4 m ρ c main_v26) (V4 m ρ c main_arg12) (V4 m ρ c main_v27) (V4 m ρ c main_v22) (V4 m ρ c main_v23)
      (V4 m ρ c main_v29) r q
    = P (m ((c : Thread nD τ).loc main_arg0)) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      (fun p => row ((m ((c : Thread nD τ).loc main_arg3)) (ix2 p (0 : Fin 2)))) (fun p => row ((m ((c : Thread nD τ).loc main_arg3)) (ix2 p (1 : Fin 2)))) r q
  unfold Reg2.g
  simp only [h10, h17, h1, h18, h19, h26, h12, h27, h22, h23, h29]
  rfl

end Cert.KernelIdeal.KValue

end
-- ==== Proof.RefDense.lean ====
/-
  The reference's dense steps, read entry by entry: each is the specification's `relu (rowdot … + b)`.
-/
import proofs.«142182_j14705968022036_1_alg».proof.Proof.Gen.ReferenceIdeal.Read
import proofs.«142182_j14705968022036_1_alg».proof.Proof.Spec

import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## A dense step read at an index

Each dense step of the reference is a matrix product, a bias row broadcast over the rows, a sum and a clip at zero.
Read at `(p, q)` it is the row `p` of the left factor against the column `q` of the right one, plus the bias entry
`q`, clipped: the specification's `relu (rowdot … + b q)`. -/

/-- The pair features projected for the atoms, at `(p, c)`. -/
theorem pa_apply (x1 : (⟨S500000x14, .f32⟩ : BufTy).Contents (Elt Ideal)) (x6 : (⟨S14x50, .f32⟩ : BufTy).Contents (Elt Ideal))
    (x7 : (⟨S50, .f32⟩ : BufTy).Contents (Elt Ideal)) (p : Fin 500000) (c : Fin 50) :
    val_main_v9 (F := Ideal) x1 x6 x7 (ix2 p c) = Cert.Weave.PA x1 x6 x7 p c := by
  rw [val_main_v9_apply, val_main_v8_apply, val_main_v5_apply, val_main_v7_apply, val_main_v6_apply,
    val_main_call1_v0_apply, val_main_call1_cst_apply]
  have el : ∀ k : Fin 14, lidx_main_v5 (ix2 p c) k = ix2 p k := fun k => funext fun a => Fin.ext (by
    match a with | ⟨0, _⟩ => rfl | ⟨1, _⟩ => rfl)
  have er : ∀ k : Fin 14, ridx_main_v5 (ix2 p c) k = ix2 k c := fun k => funext fun a => Fin.ext (by
    match a with | ⟨0, _⟩ => rfl | ⟨1, _⟩ => rfl)
  have eb : idx_main_v6 (idx_main_v7 (ix2 p c)) = ix1 c := funext fun a => Fin.ext (by
    match a with | ⟨0, _⟩ => rfl)
  simp only [el, er, eb]
  rfl

/-- The same as an array: the reference's projected pair features are the specification's. -/
theorem pa_eq (x1 : (⟨S500000x14, .f32⟩ : BufTy).Contents (Elt Ideal)) (x6 : (⟨S14x50, .f32⟩ : BufTy).Contents (Elt Ideal))
    (x7 : (⟨S50, .f32⟩ : BufTy).Contents (Elt Ideal)) :
    val_main_v9 (F := Ideal) x1 x6 x7 = Cert.Weave.PAarr x1 x6 x7 := by
  funext i
  obtain ⟨p, c, rfl⟩ : ∃ (p : Fin 500000) (c : Fin 50), i = ix2 p c := ⟨i 0, i 1, eq_ix2 i⟩
  exact pa_apply x1 x6 x7 p c

/-- The atom features projected, at `(r, k)`. -/
theorem aa_apply (x0 : (⟨S50000x75, .f32⟩ : BufTy).Contents (Elt Ideal)) (x4 : (⟨S75x100, .f32⟩ : BufTy).Contents (Elt Ideal)) (x5 : (⟨S100, .f32⟩ : BufTy).Contents (Elt Ideal)) (r : Fin 50000) (k : Fin 100) :
    val_main_v4 (F := Ideal) x0 x4 x5 (ix2 r k) = Cert.Weave.AA x0 x4 x5 r k := by
  rw [val_main_v4_apply, val_main_v3_apply, val_main_v0_apply, val_main_v2_apply, val_main_v1_apply,
    val_main_call0_v0_apply, val_main_call0_cst_apply]
  have el : ∀ j : Fin 75, lidx_main_v0 (ix2 r k) j = ix2 r j := fun j => funext fun a => Fin.ext (by
    match a with | ⟨0, _⟩ => rfl | ⟨1, _⟩ => rfl)
  have er : ∀ j : Fin 75, ridx_main_v0 (ix2 r k) j = ix2 j k := fun j => funext fun a => Fin.ext (by
    match a with | ⟨0, _⟩ => rfl | ⟨1, _⟩ => rfl)
  have eb : idx_main_v1 (idx_main_v2 (ix2 r k)) = ix1 k := funext fun a => Fin.ext (by
    match a with | ⟨0, _⟩ => rfl)
  simp only [el, er, eb]
  rfl

/-- The pair features projected for the pairs, at `(p, k)`. -/
theorem pp_apply (x1 : (⟨S500000x14, .f32⟩ : BufTy).Contents (Elt Ideal)) (x12 : (⟨S14x50, .f32⟩ : BufTy).Contents (Elt Ideal)) (x13 : (⟨S50, .f32⟩ : BufTy).Contents (Elt Ideal)) (p : Fin 500000) (k : Fin 50) :
    val_main_v50 (F := Ideal) x1 x12 x13 (ix2 p k) = Cert.Weave.PP x1 x12 x13 p k := by
  rw [val_main_v50_apply, val_main_v49_apply, val_main_v46_apply, val_main_v48_apply, val_main_v47_apply,
    val_main_call5_v0_apply, val_main_call5_cst_apply]
  have el : ∀ j : Fin 14, lidx_main_v46 (ix2 p k) j = ix2 p j := fun j => funext fun a => Fin.ext (by
    match a with | ⟨0, _⟩ => rfl | ⟨1, _⟩ => rfl)
  have er : ∀ j : Fin 14, ridx_main_v46 (ix2 p k) j = ix2 j k := fun j => funext fun a => Fin.ext (by
    match a with | ⟨0, _⟩ => rfl | ⟨1, _⟩ => rfl)
  have eb : idx_main_v47 (idx_main_v48 (ix2 p k)) = ix1 k := funext fun a => Fin.ext (by
    match a with | ⟨0, _⟩ => rfl)
  simp only [el, er, eb]
  rfl

end Cert.ReferenceIdeal.RefValue

end
-- ==== Proof.RefAtom.lean ====
/-
  The reference's atom result, read entry by entry, is the specification's.
-/
import proofs.«142182_j14705968022036_1_alg».proof.Proof.Gen.ReferenceIdeal.Read
import proofs.«142182_j14705968022036_1_alg».proof.Proof.Spec
import proofs.«142182_j14705968022036_1_alg».proof.Proof.RefDense
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## The atom result

The reference joins the projected atom features (100 columns) and the atoms' summed pair projections (50 columns)
into one array of 150 columns and multiplies it by the whole output weight matrix. A sum over the 150 joined
columns is the sum over the first 100 plus the sum over the last 50. -/

/-- The joined array at a column below 100: the projected atom features. -/
theorem v13_left (x0 : (⟨S50000x75, .f32⟩ : BufTy).Contents (Elt Ideal)) (x1 : (⟨S500000x14, .f32⟩ : BufTy).Contents (Elt Ideal)) (x2 : (⟨S500000, .i32⟩ : BufTy).Contents (Elt Ideal))
    (x4 : (⟨S75x100, .f32⟩ : BufTy).Contents (Elt Ideal)) (x5 : (⟨S100, .f32⟩ : BufTy).Contents (Elt Ideal)) (x6 : (⟨S14x50, .f32⟩ : BufTy).Contents (Elt Ideal)) (x7 : (⟨S50, .f32⟩ : BufTy).Contents (Elt Ideal)) (r : Fin 50000) (k : Fin 100) :
    val_main_v13 (F := Ideal) x0 x1 x2 x4 x5 x6 x7 (ix2 r (⟨k.val, by omega⟩ : Fin 150))
      = val_main_v4 (F := Ideal) x0 x4 x5 (ix2 r k) := by
  unfold val_main_v13
  exact concatenate_pair_apply_left (t := S50000x150) (s₁ := S50000x100) (s₂ := S50000x50) (1 : Fin 2)
    (val_main_v4 (F := Ideal) x0 x4 x5) (val_main_v12 (F := Ideal) x1 x2 x6 x7) _
    (ix2 r (⟨k.val, by omega⟩ : Fin 150)) rfl (ix2 r k) (fun b => by
    match b with | ⟨0, _⟩ => rfl | ⟨1, _⟩ => rfl)

/-- The joined array at column `100 + k`: the atoms' summed pair projections, column `k`. -/
theorem v13_right (x0 : (⟨S50000x75, .f32⟩ : BufTy).Contents (Elt Ideal)) (x1 : (⟨S500000x14, .f32⟩ : BufTy).Contents (Elt Ideal)) (x2 : (⟨S500000, .i32⟩ : BufTy).Contents (Elt Ideal))
    (x4 : (⟨S75x100, .f32⟩ : BufTy).Contents (Elt Ideal)) (x5 : (⟨S100, .f32⟩ : BufTy).Contents (Elt Ideal)) (x6 : (⟨S14x50, .f32⟩ : BufTy).Contents (Elt Ideal)) (x7 : (⟨S50, .f32⟩ : BufTy).Contents (Elt Ideal)) (r : Fin 50000) (k : Fin 50) :
    val_main_v13 (F := Ideal) x0 x1 x2 x4 x5 x6 x7 (ix2 r (⟨100 + k.val, by omega⟩ : Fin 150))
      = val_main_v12 (F := Ideal) x1 x2 x6 x7 (ix2 r k) := by
  unfold val_main_v13
  exact concatenate_pair_apply_right (t := S50000x150) (s₁ := S50000x100) (s₂ := S50000x50) (1 : Fin 2)
    (val_main_v4 (F := Ideal) x0 x4 x5) (val_main_v12 (F := Ideal) x1 x2 x6 x7) _
    (ix2 r (⟨100 + k.val, by omega⟩ : Fin 150)) rfl rfl (ix2 r k) (fun b hb => by
    match b with
    | ⟨0, _⟩ => rfl
    | ⟨1, _⟩ => exact absurd rfl hb)
    (by show k.val + 100 = 100 + k.val; omega)

/-- THE ATOM RESULT at `(r, c)` is the specification's, with the atoms' summed pair projections left as they are. -/
theorem a_apply (x0 : (⟨S50000x75, .f32⟩ : BufTy).Contents (Elt Ideal)) (x1 : (⟨S500000x14, .f32⟩ : BufTy).Contents (Elt Ideal)) (x2 : (⟨S500000, .i32⟩ : BufTy).Contents (Elt Ideal))
    (x4 : (⟨S75x100, .f32⟩ : BufTy).Contents (Elt Ideal)) (x5 : (⟨S100, .f32⟩ : BufTy).Contents (Elt Ideal)) (x6 : (⟨S14x50, .f32⟩ : BufTy).Contents (Elt Ideal)) (x7 : (⟨S50, .f32⟩ : BufTy).Contents (Elt Ideal)) (x8 : (⟨S150x50, .f32⟩ : BufTy).Contents (Elt Ideal)) (x9 : (⟨S50, .f32⟩ : BufTy).Contents (Elt Ideal))
    (r : Fin 50000) (c : Fin 50) :
    val_main_v18 (F := Ideal) x0 x1 x2 x4 x5 x6 x7 x8 x9 (ix2 r c)
      = Cert.Weave.A x0 x4 x5 x8 x9 (val_main_v12 (F := Ideal) x1 x2 x6 x7) r c := by
  rw [val_main_v18_apply, val_main_v17_apply, val_main_v14_apply, val_main_v16_apply, val_main_v15_apply,
    val_main_call2_v0_apply, val_main_call2_cst_apply]
  have el : ∀ k : Fin 150, lidx_main_v14 (ix2 r c) k = ix2 r k := fun k => funext fun a => Fin.ext (by
    match a with | ⟨0, _⟩ => rfl | ⟨1, _⟩ => rfl)
  have er : ∀ k : Fin 150, ridx_main_v14 (ix2 r c) k = ix2 k c := fun k => funext fun a => Fin.ext (by
    match a with | ⟨0, _⟩ => rfl | ⟨1, _⟩ => rfl)
  have eb : idx_main_v15 (idx_main_v16 (ix2 r c)) = ix1 c := funext fun a => Fin.ext (by
    match a with | ⟨0, _⟩ => rfl)
  simp only [el, er, eb]
  have hs := Cert.Weave.sum_split 100 50 150 rfl
    (fun k : Fin 150 => val_main_v13 (F := Ideal) x0 x1 x2 x4 x5 x6 x7 (ix2 r k) * x8 (ix2 k c))
  rw [hs]
  simp only [v13_left, v13_right, aa_apply]
  rfl

end Cert.ReferenceIdeal.RefValue

end
-- ==== Proof.RefGather.lean ====
/-
  The reference's gathers of atom rows, read entry by entry: each pair's two rows, in either order.
-/
import proofs.«142182_j14705968022036_1_alg».proof.Proof.Gen.ReferenceIdeal.Read
import proofs.«142182_j14705968022036_1_alg».proof.Proof.Spec

import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## A gather of rows, read at an index

The reference takes, for every pair `p` and slot `s`, the whole row of the atom table that the index word at
`(p, s)` selects: the word read as a signed integer and clamped into the table, as a gather clamps every start
index. Result entry `(p, s, j)` is the table's entry `j` of that row. -/

section Gather
variable {α : Type} {w : Nat}

/-- THE GATHER READ AT `(p, s, j)`: the table at the row the start index `idx[p, s, 0]` selects (read signed, clamped
    into `[0, 49999]`), column `j`. -/
theorem gather_rows_apply (x : S50000x75.Idx → α) (idx : IVec S500000x2x1 w) (p : Fin 500000) (s : Fin 2) (j : Fin 75) :
    Host.gather gather_S50000x75_S500000x2x1_S500000x2x75_2_0_n_n_0_2_175 x idx (ix3 p s j)
      = x (ix2 (⟨min (idx (ix3 p s 0)).toInt.toNat 49999, by omega⟩ : Fin 50000) j) := by
  unfold Host.gather
  congr 1
  funext a
  refine Fin.ext ?_
  match a with
  | ⟨0, _⟩ =>
    show gather_S50000x75_S500000x2x1_S500000x2x75_2_0_n_n_0_2_175.start (ix3 p s j) idx 0
      + gather_S50000x75_S500000x2x1_S500000x2x75_2_0_n_n_0_2_175.batchCoord (ix3 p s j) 0
      + gather_S50000x75_S500000x2x1_S500000x2x75_2_0_n_n_0_2_175.offCoord (ix3 p s j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x75_S500000x2x1_S500000x2x75_2_0_n_n_0_2_175.startIndexMap from
      List.mem_singleton.mpr rfl)]
    have hsi : gather_S50000x75_S500000x2x1_S500000x2x75_2_0_n_n_0_2_175.siIdx (ix3 p s j)
        ⟨List.idxOf (0 : Fin 2) gather_S50000x75_S500000x2x1_S500000x2x75_2_0_n_n_0_2_175.startIndexMap,
          List.idxOf_lt_length_iff.2 (List.mem_singleton.mpr rfl)⟩ = ix3 p s 0 := by
      funext b; refine Fin.ext ?_
      match b with
      | ⟨0, _⟩ => rfl
      | ⟨1, _⟩ => rfl
      | ⟨2, _⟩ => rfl
    rw [hsi]
    rfl
  | ⟨1, _⟩ =>
    show gather_S50000x75_S500000x2x1_S500000x2x75_2_0_n_n_0_2_175.start (ix3 p s j) idx 1
      + gather_S50000x75_S500000x2x1_S500000x2x75_2_0_n_n_0_2_175.batchCoord (ix3 p s j) 1
      + gather_S50000x75_S500000x2x1_S500000x2x75_2_0_n_n_0_2_175.offCoord (ix3 p s j) 1 = j.val
    rw [GatherDims.batchCoord_eq_zero _ _ _ List.not_mem_nil]
    unfold GatherDims.start
    rw [dif_neg (show ¬ (1 : Fin 2) ∈ gather_S50000x75_S500000x2x1_S500000x2x75_2_0_n_n_0_2_175.startIndexMap by decide)]
    unfold GatherDims.offCoord
    rw [dif_pos (show (1 : Fin 2) ∈ gather_S50000x75_S500000x2x1_S500000x2x75_2_0_n_n_0_2_175.sKept by decide)]
    simp only [Nat.zero_add]
    rfl

end Gather

/-! ## The index words -/

/-- The index word at `(p, s)`, wrapped as the reference wraps it (a negative word counts from the end). -/
theorem v23_apply (x3 : (⟨S500000x2, .i32⟩ : BufTy).Contents (Elt Ideal)) (p : Fin 500000) (s : Fin 2) :
    val_main_v23 (F := Ideal) x3 (ix2 p s) = Cert.Weave.wrap (x3 (ix2 p s)) := by
  rw [val_main_v23_apply, val_main_v20_apply, val_main_v22_apply, val_main_v19_apply, val_main_v21_apply,
    val_main_c_apply, val_main_c_0_apply]
  rfl

/-- The start indices of the first gather at `(p, s, 0)`. -/
theorem v24_apply (x3 : (⟨S500000x2, .i32⟩ : BufTy).Contents (Elt Ideal)) (p : Fin 500000) (s : Fin 2) :
    val_main_v24 (F := Ideal) x3 (ix3 p s 0) = Cert.Weave.wrap (x3 (ix2 p s)) := by
  rw [val_main_v24_apply]
  have e : idx_main_v24 (ix3 p s (0 : Fin 1)) = ix2 p s := funext fun a => Fin.ext (by
    match a with | ⟨0, _⟩ => rfl | ⟨1, _⟩ => rfl)
  rw [e, v23_apply]

/-- The pair array with its two slots exchanged, at `(p, s)`. -/
theorem v27_apply (x3 : (⟨S500000x2, .i32⟩ : BufTy).Contents (Elt Ideal)) (p : Fin 500000) (s : Fin 2) :
    val_main_v27 (F := Ideal) x3 (ix2 p s) = x3 (ix2 p s.rev) := by
  unfold val_main_v27 Host.reverse
  congr 1
  funext a
  match a with
  | ⟨0, _⟩ => exact if_neg (fun h => absurd (congrArg Fin.val (List.mem_singleton.mp h)) Nat.zero_ne_one)
  | ⟨1, _⟩ => exact if_pos (List.mem_singleton.mpr rfl)

/-- The exchanged index word at `(p, s)`, wrapped. -/
theorem v32_apply (x3 : (⟨S500000x2, .i32⟩ : BufTy).Contents (Elt Ideal)) (p : Fin 500000) (s : Fin 2) :
    val_main_v32 (F := Ideal) x3 (ix2 p s) = Cert.Weave.wrap (x3 (ix2 p s.rev)) := by
  rw [val_main_v32_apply, val_main_v29_apply, val_main_v31_apply, val_main_v28_apply, val_main_v30_apply,
    val_main_c_1_apply, val_main_c_2_apply, v27_apply]
  rfl

/-- The start indices of the second gather at `(p, s, 0)`. -/
theorem v33_apply (x3 : (⟨S500000x2, .i32⟩ : BufTy).Contents (Elt Ideal)) (p : Fin 500000) (s : Fin 2) :
    val_main_v33 (F := Ideal) x3 (ix3 p s 0) = Cert.Weave.wrap (x3 (ix2 p s.rev)) := by
  rw [val_main_v33_apply]
  have e : idx_main_v33 (ix3 p s (0 : Fin 1)) = ix2 p s := funext fun a => Fin.ext (by
    match a with | ⟨0, _⟩ => rfl | ⟨1, _⟩ => rfl)
  rw [e, v32_apply]

/-! ## The gathered rows -/

/-- The first gather at `(p, s, j)`: the atom row the word at `(p, s)` selects, column `j`. -/
theorem v25_apply (x0 : (⟨S50000x75, .f32⟩ : BufTy).Contents (Elt Ideal)) (x3 : (⟨S500000x2, .i32⟩ : BufTy).Contents (Elt Ideal)) (p : Fin 500000) (s : Fin 2) (j : Fin 75) :
    val_main_v25 (F := Ideal) x0 x3 (ix3 p s j) = x0 (ix2 (Cert.Weave.row (x3 (ix2 p s))) j) := by
  unfold val_main_v25
  refine (gather_rows_apply x0 (val_main_v24 (F := Ideal) x3) p s j).trans ?_
  refine congrArg (fun r : Fin 50000 => x0 (ix2 r j)) (Fin.ext ?_)
  show min (val_main_v24 (F := Ideal) x3 (ix3 p s 0)).toInt.toNat 49999
    = min (Cert.Weave.wrap (x3 (ix2 p s))).toInt.toNat 49999
  rw [v24_apply]

/-- The second gather at `(p, s, j)`: the atom row the word at the OTHER slot selects, column `j`. -/
theorem v34_apply (x0 : (⟨S50000x75, .f32⟩ : BufTy).Contents (Elt Ideal)) (x3 : (⟨S500000x2, .i32⟩ : BufTy).Contents (Elt Ideal)) (p : Fin 500000) (s : Fin 2) (j : Fin 75) :
    val_main_v34 (F := Ideal) x0 x3 (ix3 p s j) = x0 (ix2 (Cert.Weave.row (x3 (ix2 p s.rev))) j) := by
  unfold val_main_v34
  refine (gather_rows_apply x0 (val_main_v33 (F := Ideal) x3) p s j).trans ?_
  refine congrArg (fun r : Fin 50000 => x0 (ix2 r j)) (Fin.ext ?_)
  show min (val_main_v33 (F := Ideal) x3 (ix3 p s 0)).toInt.toNat 49999
    = min (Cert.Weave.wrap (x3 (ix2 p s.rev))).toInt.toNat 49999
  rw [v33_apply]

/-! ## The two rows of a pair laid side by side

Reshaping `[500000, 2, 75]` to `[500000, 150]` puts slot 0's row in columns `0 … 74` and slot 1's in `75 … 149`. -/

/-- Where column `j < 75` of the reshaped array comes from: slot 0, column `j`. -/
theorem reshape_lo (p : Fin 500000) (j : Fin 75) :
    idx_main_v26 (ix2 p (⟨j.val, by omega⟩ : Fin 150)) = ix3 p (0 : Fin 2) j := by
  have hp := p.isLt
  have hj := j.isLt
  funext a
  refine Fin.ext ?_
  match a with
  | ⟨0, _⟩ => show (p.val * 150 + j.val) / 150 = p.val; omega
  | ⟨1, _⟩ => show (p.val * 150 + j.val) / 75 % 2 = 0; omega
  | ⟨2, _⟩ => show (p.val * 150 + j.val) % 75 = j.val; omega

/-- Where column `75 + j` of the reshaped array comes from: slot 1, column `j`. -/
theorem reshape_hi (p : Fin 500000) (j : Fin 75) :
    idx_main_v26 (ix2 p (⟨75 + j.val, by omega⟩ : Fin 150)) = ix3 p (1 : Fin 2) j := by
  have hp := p.isLt
  have hj := j.isLt
  funext a
  refine Fin.ext ?_
  match a with
  | ⟨0, _⟩ => show (p.val * 150 + (75 + j.val)) / 150 = p.val; omega
  | ⟨1, _⟩ => show (p.val * 150 + (75 + j.val)) / 75 % 2 = 1; omega
  | ⟨2, _⟩ => show (p.val * 150 + (75 + j.val)) % 75 = j.val; omega

/-- The pair's rows in the order `(i, j)`, first half. -/
theorem v26_lo (x0 : (⟨S50000x75, .f32⟩ : BufTy).Contents (Elt Ideal)) (x3 : (⟨S500000x2, .i32⟩ : BufTy).Contents (Elt Ideal)) (p : Fin 500000) (j : Fin 75) :
    val_main_v26 (F := Ideal) x0 x3 (ix2 p (⟨j.val, by omega⟩ : Fin 150))
      = x0 (ix2 (Cert.Weave.row (x3 (ix2 p 0))) j) := by
  rw [val_main_v26_apply, reshape_lo, v25_apply]

/-- The pair's rows in the order `(i, j)`, second half. -/
theorem v26_hi (x0 : (⟨S50000x75, .f32⟩ : BufTy).Contents (Elt Ideal)) (x3 : (⟨S500000x2, .i32⟩ : BufTy).Contents (Elt Ideal)) (p : Fin 500000) (j : Fin 75) :
    val_main_v26 (F := Ideal) x0 x3 (ix2 p (⟨75 + j.val, by omega⟩ : Fin 150))
      = x0 (ix2 (Cert.Weave.row (x3 (ix2 p 1))) j) := by
  rw [val_main_v26_apply, reshape_hi, v25_apply]

/-- The pair's rows in the order `(j, i)`, first half. -/
theorem v35_lo (x0 : (⟨S50000x75, .f32⟩ : BufTy).Contents (Elt Ideal)) (x3 : (⟨S500000x2, .i32⟩ : BufTy).Contents (Elt Ideal)) (p : Fin 500000) (j : Fin 75) :
    val_main_v35 (F := Ideal) x0 x3 (ix2 p (⟨j.val, by omega⟩ : Fin 150))
      = x0 (ix2 (Cert.Weave.row (x3 (ix2 p 1))) j) := by
  rw [val_main_v35_apply]
  show val_main_v34 (F := Ideal) x0 x3 (idx_main_v26 (ix2 p (⟨j.val, by omega⟩ : Fin 150))) = _
  rw [reshape_lo, v34_apply]
  rfl

/-- The pair's rows in the order `(j, i)`, second half. -/
theorem v35_hi (x0 : (⟨S50000x75, .f32⟩ : BufTy).Contents (Elt Ideal)) (x3 : (⟨S500000x2, .i32⟩ : BufTy).Contents (Elt Ideal)) (p : Fin 500000) (j : Fin 75) :
    val_main_v35 (F := Ideal) x0 x3 (ix2 p (⟨75 + j.val, by omega⟩ : Fin 150))
      = x0 (ix2 (Cert.Weave.row (x3 (ix2 p 0))) j) := by
  rw [val_main_v35_apply]
  show val_main_v34 (F := Ideal) x0 x3 (idx_main_v26 (ix2 p (⟨75 + j.val, by omega⟩ : Fin 150))) = _
  rw [reshape_hi, v34_apply]
  rfl

end Cert.ReferenceIdeal.RefValue

end
-- ==== Proof.RefPair.lean ====
/-
  The reference's pair result, read entry by entry, is the specification's.
-/
import proofs.«142182_j14705968022036_1_alg».proof.Proof.Gen.ReferenceIdeal.Read
import proofs.«142182_j14705968022036_1_alg».proof.Proof.Spec
import proofs.«142182_j14705968022036_1_alg».proof.Proof.RefDense
import proofs.«142182_j14705968022036_1_alg».proof.Proof.RefGather
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## The pair result

For each pair the reference lays the two gathered atom rows side by side (150 columns) and multiplies by the whole
pair weight matrix, once in each order of the two rows; it adds the two clipped results, joins the sum (50 columns)
with the projected pair features (50 columns) and multiplies by the whole output weight matrix. A sum over joined
columns is the sum over the first part plus the sum over the second. -/

/-- The pair's atoms in the order `(i, j)` through the pair weights, at `(p, k)`. -/
theorem v40_apply (x0 : (⟨S50000x75, .f32⟩ : BufTy).Contents (Elt Ideal)) (x3 : (⟨S500000x2, .i32⟩ : BufTy).Contents (Elt Ideal)) (x10 : (⟨S150x50, .f32⟩ : BufTy).Contents (Elt Ideal)) (x11 : (⟨S50, .f32⟩ : BufTy).Contents (Elt Ideal)) (p : Fin 500000) (k : Fin 50) :
    val_main_v40 (F := Ideal) x0 x3 x10 x11 (ix2 p k)
      = Cert.Weave.AP x0 x10 x11 (Cert.Weave.row (x3 (ix2 p 0))) (Cert.Weave.row (x3 (ix2 p 1))) k := by
  rw [val_main_v40_apply, val_main_v39_apply, val_main_v36_apply, val_main_v38_apply, val_main_v37_apply,
    val_main_call3_v0_apply, val_main_call3_cst_apply]
  have el : ∀ j : Fin 150, lidx_main_v36 (ix2 p k) j = ix2 p j := fun j => funext fun a => Fin.ext (by
    match a with | ⟨0, _⟩ => rfl | ⟨1, _⟩ => rfl)
  have er : ∀ j : Fin 150, ridx_main_v36 (ix2 p k) j = ix2 j k := fun j => funext fun a => Fin.ext (by
    match a with | ⟨0, _⟩ => rfl | ⟨1, _⟩ => rfl)
  have eb : idx_main_v37 (idx_main_v38 (ix2 p k)) = ix1 k := funext fun a => Fin.ext (by
    match a with | ⟨0, _⟩ => rfl)
  simp only [el, er, eb]
  have hs := Cert.Weave.sum_split 75 75 150 rfl
    (fun j : Fin 150 => val_main_v26 (F := Ideal) x0 x3 (ix2 p j) * x10 (ix2 j k))
  rw [hs]
  simp only [v26_lo, v26_hi]
  rfl

/-- The pair's atoms in the order `(j, i)` through the pair weights, at `(p, k)`. -/
theorem v45_apply (x0 : (⟨S50000x75, .f32⟩ : BufTy).Contents (Elt Ideal)) (x3 : (⟨S500000x2, .i32⟩ : BufTy).Contents (Elt Ideal)) (x10 : (⟨S150x50, .f32⟩ : BufTy).Contents (Elt Ideal)) (x11 : (⟨S50, .f32⟩ : BufTy).Contents (Elt Ideal)) (p : Fin 500000) (k : Fin 50) :
    val_main_v45 (F := Ideal) x0 x3 x10 x11 (ix2 p k)
      = Cert.Weave.AP x0 x10 x11 (Cert.Weave.row (x3 (ix2 p 1))) (Cert.Weave.row (x3 (ix2 p 0))) k := by
  rw [val_main_v45_apply, val_main_v44_apply, val_main_v41_apply, val_main_v43_apply, val_main_v42_apply,
    val_main_call4_v0_apply, val_main_call4_cst_apply]
  have el : ∀ j : Fin 150, lidx_main_v41 (ix2 p k) j = ix2 p j := fun j => funext fun a => Fin.ext (by
    match a with | ⟨0, _⟩ => rfl | ⟨1, _⟩ => rfl)
  have er : ∀ j : Fin 150, ridx_main_v41 (ix2 p k) j = ix2 j k := fun j => funext fun a => Fin.ext (by
    match a with | ⟨0, _⟩ => rfl | ⟨1, _⟩ => rfl)
  have eb : idx_main_v42 (idx_main_v43 (ix2 p k)) = ix1 k := funext fun a => Fin.ext (by
    match a with | ⟨0, _⟩ => rfl)
  simp only [el, er, eb]
  have hs := Cert.Weave.sum_split 75 75 150 rfl
    (fun j : Fin 150 => val_main_v35 (F := Ideal) x0 x3 (ix2 p j) * x10 (ix2 j k))
  rw [hs]
  simp only [v35_lo, v35_hi]
  rfl

/-- The joined array at a column below 50: the sum of the two orders. -/
theorem v52_left (x0 : (⟨S50000x75, .f32⟩ : BufTy).Contents (Elt Ideal)) (x1 : (⟨S500000x14, .f32⟩ : BufTy).Contents (Elt Ideal)) (x3 : (⟨S500000x2, .i32⟩ : BufTy).Contents (Elt Ideal)) (x10 : (⟨S150x50, .f32⟩ : BufTy).Contents (Elt Ideal)) (x11 : (⟨S50, .f32⟩ : BufTy).Contents (Elt Ideal))
    (x12 : (⟨S14x50, .f32⟩ : BufTy).Contents (Elt Ideal)) (x13 : (⟨S50, .f32⟩ : BufTy).Contents (Elt Ideal)) (p : Fin 500000) (k : Fin 50) :
    val_main_v52 (F := Ideal) x0 x1 x3 x10 x11 x12 x13 (ix2 p (⟨k.val, by omega⟩ : Fin 100))
      = val_main_v51 (F := Ideal) x0 x3 x10 x11 (ix2 p k) := by
  unfold val_main_v52
  exact concatenate_pair_apply_left (t := S500000x100) (s₁ := S500000x50) (s₂ := S500000x50) (1 : Fin 2)
    (val_main_v51 (F := Ideal) x0 x3 x10 x11) (val_main_v50 (F := Ideal) x1 x12 x13) _
    (ix2 p (⟨k.val, by omega⟩ : Fin 100)) rfl (ix2 p k) (fun b => by
    match b with | ⟨0, _⟩ => rfl | ⟨1, _⟩ => rfl)

/-- The joined array at column `50 + k`: the projected pair features, column `k`. -/
theorem v52_right (x0 : (⟨S50000x75, .f32⟩ : BufTy).Contents (Elt Ideal)) (x1 : (⟨S500000x14, .f32⟩ : BufTy).Contents (Elt Ideal)) (x3 : (⟨S500000x2, .i32⟩ : BufTy).Contents (Elt Ideal)) (x10 : (⟨S150x50, .f32⟩ : BufTy).Contents (Elt Ideal)) (x11 : (⟨S50, .f32⟩ : BufTy).Contents (Elt Ideal))
    (x12 : (⟨S14x50, .f32⟩ : BufTy).Contents (Elt Ideal)) (x13 : (⟨S50, .f32⟩ : BufTy).Contents (Elt Ideal)) (p : Fin 500000) (k : Fin 50) :
    val_main_v52 (F := Ideal) x0 x1 x3 x10 x11 x12 x13 (ix2 p (⟨50 + k.val, by omega⟩ : Fin 100))
      = val_main_v50 (F := Ideal) x1 x12 x13 (ix2 p k) := by
  unfold val_main_v52
  exact concatenate_pair_apply_right (t := S500000x100) (s₁ := S500000x50) (s₂ := S500000x50) (1 : Fin 2)
    (val_main_v51 (F := Ideal) x0 x3 x10 x11) (val_main_v50 (F := Ideal) x1 x12 x13) _
    (ix2 p (⟨50 + k.val, by omega⟩ : Fin 100)) rfl rfl (ix2 p k) (fun b hb => by
    match b with
    | ⟨0, _⟩ => rfl
    | ⟨1, _⟩ => exact absurd rfl hb)
    (by show k.val + 50 = 50 + k.val; omega)

/-- THE PAIR RESULT at `(p, c)` is the specification's, the two atom rows of pair `p` being the ones its two index
    words select. -/
theorem p_apply (x0 : (⟨S50000x75, .f32⟩ : BufTy).Contents (Elt Ideal)) (x1 : (⟨S500000x14, .f32⟩ : BufTy).Contents (Elt Ideal)) (x3 : (⟨S500000x2, .i32⟩ : BufTy).Contents (Elt Ideal)) (x10 : (⟨S150x50, .f32⟩ : BufTy).Contents (Elt Ideal)) (x11 : (⟨S50, .f32⟩ : BufTy).Contents (Elt Ideal))
    (x12 : (⟨S14x50, .f32⟩ : BufTy).Contents (Elt Ideal)) (x13 : (⟨S50, .f32⟩ : BufTy).Contents (Elt Ideal)) (x14 : (⟨S100x50, .f32⟩ : BufTy).Contents (Elt Ideal)) (x15 : (⟨S50, .f32⟩ : BufTy).Contents (Elt Ideal)) (p : Fin 500000) (c : Fin 50) :
    val_main_v57 (F := Ideal) x0 x1 x3 x10 x11 x12 x13 x14 x15 (ix2 p c)
      = Cert.Weave.P x0 x1 x10 x11 x12 x13 x14 x15 (fun p => Cert.Weave.row (x3 (ix2 p 0)))
          (fun p => Cert.Weave.row (x3 (ix2 p 1))) p c := by
  rw [val_main_v57_apply, val_main_v56_apply, val_main_v53_apply, val_main_v55_apply, val_main_v54_apply,
    val_main_call6_v0_apply, val_main_call6_cst_apply]
  have el : ∀ j : Fin 100, lidx_main_v53 (ix2 p c) j = ix2 p j := fun j => funext fun a => Fin.ext (by
    match a with | ⟨0, _⟩ => rfl | ⟨1, _⟩ => rfl)
  have er : ∀ j : Fin 100, ridx_main_v53 (ix2 p c) j = ix2 j c := fun j => funext fun a => Fin.ext (by
    match a with | ⟨0, _⟩ => rfl | ⟨1, _⟩ => rfl)
  have eb : idx_main_v54 (idx_main_v55 (ix2 p c)) = ix1 c := funext fun a => Fin.ext (by
    match a with | ⟨0, _⟩ => rfl)
  simp only [el, er, eb]
  have hs := Cert.Weave.sum_split 50 50 100 rfl
    (fun k : Fin 100 => val_main_v52 (F := Ideal) x0 x1 x3 x10 x11 x12 x13 (ix2 p k) * x14 (ix2 k c))
  rw [hs]
  simp only [v52_left, v52_right, val_main_v51_apply, v40_apply, v45_apply, pp_apply]
  rfl

end Cert.ReferenceIdeal.RefValue

end
-- ==== Proof.lean ====
/-
  The Weave layer computed by three fused calls equals the Weave layer computed by whole-array operations.

  Both programs project the pair features, add each atom's projected pairs by the same scatter-add, and pass every
  dense step through the same clip at zero. They differ in one thing: where the reference multiplies a concatenated
  row `[u | v]` by a whole weight matrix, the kernel multiplies `u` by the matrix's first rows and `v` by its last rows
  and adds the two products. On the extended reals a sum over a concatenated axis is the sum of the two partial sums,
  for all values, finite or not, so the two results agree entry by entry and the precondition is never opened.

  The kernel's side: its run ends with the two results at the contents its last boundary gives them; those are the
  second and the third call's output arrays, each call's output is its body's value at every row, and the host
  operations in between are read at an index. The reference's side: its run ends at its operations' composed term,
  read one operation at a time. Both are stated against one pair of functions of the sixteen arguments (`Weave.resA`,
  `Weave.resP`). The idealization changed nothing in the kernel's text, so nothing is owed for it.
-/
import proofs.«142182_j14705968022036_1_alg».proof.Defs
import proofs.«142182_j14705968022036_1_alg».proof.Proof.Gen.Kernel
import proofs.«142182_j14705968022036_1_alg».proof.Proof.Gen.Kernel.Frame
import proofs.«142182_j14705968022036_1_alg».proof.Proof.Gen.KernelIdeal
import proofs.«142182_j14705968022036_1_alg».proof.Proof.Gen.KernelIdeal.Frame
import proofs.«142182_j14705968022036_1_alg».proof.Proof.Gen.ReferenceIdeal
import proofs.«142182_j14705968022036_1_alg».proof.Proof.Gen.ReferenceIdeal.Run
import proofs.«142182_j14705968022036_1_alg».proof.Proof.Gen.ReferenceIdeal.Read
import proofs.«142182_j14705968022036_1_alg».proof.Proof.Gen.Pre_finite_inputs
import proofs.«142182_j14705968022036_1_alg».proof.Proof.KernelRun
import proofs.«142182_j14705968022036_1_alg».proof.Proof.KernelValue
import proofs.«142182_j14705968022036_1_alg».proof.Proof.RefAtom
import proofs.«142182_j14705968022036_1_alg».proof.Proof.RefPair
import proofs.«142182_j14705968022036_1_alg».proof.Proof.Results
import Idealize.ShloMosaic.Adequacy
import Idealize.ShloMosaic.Init

noncomputable section

namespace Cert.Proof

open Idealize.ShloMosaic Idealize.ShloMosaic.TcCoe Idealize.ShloMosaic.ValueIdx Idealize.SL.Sem

/-! ## The reference's two results as arrays of its arguments -/

section Reference
open Cert.ReferenceIdeal Cert.ReferenceIdeal.Read Cert.ReferenceIdeal.RefValue

/-- The reference's summed pair projections are the scatter-add of the projected pair rows. -/
theorem ref_seg (x1 : (⟨S500000x14, .f32⟩ : BufTy).Contents (Elt Ideal)) (x2 : (⟨S500000, .i32⟩ : BufTy).Contents (Elt Ideal))
    (x6 : (⟨S14x50, .f32⟩ : BufTy).Contents (Elt Ideal)) (x7 : (⟨S50, .f32⟩ : BufTy).Contents (Elt Ideal)) :
    val_main_v12 (F := Ideal) x1 x2 x6 x7 = Cert.Weave.segOf x2 (Cert.Weave.PAarr x1 x6 x7) := by
  unfold val_main_v12
  rw [pa_eq]
  rfl

/-- The reference's atom result. -/
theorem ref_A (x0 : (⟨S50000x75, .f32⟩ : BufTy).Contents (Elt Ideal)) (x1 : (⟨S500000x14, .f32⟩ : BufTy).Contents (Elt Ideal))
    (x2 : (⟨S500000, .i32⟩ : BufTy).Contents (Elt Ideal)) (x4 : (⟨S75x100, .f32⟩ : BufTy).Contents (Elt Ideal))
    (x5 : (⟨S100, .f32⟩ : BufTy).Contents (Elt Ideal)) (x6 : (⟨S14x50, .f32⟩ : BufTy).Contents (Elt Ideal))
    (x7 : (⟨S50, .f32⟩ : BufTy).Contents (Elt Ideal)) (x8 : (⟨S150x50, .f32⟩ : BufTy).Contents (Elt Ideal))
    (x9 : (⟨S50, .f32⟩ : BufTy).Contents (Elt Ideal)) :
    val_main_v18 (F := Ideal) x0 x1 x2 x4 x5 x6 x7 x8 x9 = Cert.Weave.resA x0 x4 x5 x8 x9 x1 x2 x6 x7 := by
  funext i
  obtain ⟨r, q, rfl⟩ : ∃ (r : Fin 50000) (q : Fin 50), i = ix2 r q := ⟨i 0, i 1, @eq_ix2 50000 50 i⟩
  rw [a_apply, ref_seg]
  rfl

/-- The reference's pair result. -/
theorem ref_P (x0 : (⟨S50000x75, .f32⟩ : BufTy).Contents (Elt Ideal)) (x1 : (⟨S500000x14, .f32⟩ : BufTy).Contents (Elt Ideal))
    (x3 : (⟨S500000x2, .i32⟩ : BufTy).Contents (Elt Ideal)) (x10 : (⟨S150x50, .f32⟩ : BufTy).Contents (Elt Ideal))
    (x11 : (⟨S50, .f32⟩ : BufTy).Contents (Elt Ideal)) (x12 : (⟨S14x50, .f32⟩ : BufTy).Contents (Elt Ideal))
    (x13 : (⟨S50, .f32⟩ : BufTy).Contents (Elt Ideal)) (x14 : (⟨S100x50, .f32⟩ : BufTy).Contents (Elt Ideal))
    (x15 : (⟨S50, .f32⟩ : BufTy).Contents (Elt Ideal)) :
    val_main_v57 (F := Ideal) x0 x1 x3 x10 x11 x12 x13 x14 x15 = Cert.Weave.resP x0 x1 x3 x10 x11 x12 x13 x14 x15 := by
  funext i
  obtain ⟨p, q, rfl⟩ : ∃ (p : Fin 500000) (q : Fin 50), i = ix2 p q := ⟨i 0, i 1, @eq_ix2 500000 50 i⟩
  rw [p_apply]
  rfl

end Reference

/-! ## The claims -/

theorem frame_p : Cert.frame_Kernel (hKernel := Cert.Kernel.Gen.facts) (hPre_finite_inputs := Cert.Pre_finite_inputs.Gen.facts) :=
  fun m ρ _ => Cert.Kernel.Gen.frame m ρ

theorem frame_pi : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame: its run with the two results dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both runs end, from memories agreeing on the arguments, with the atom result at `Weave.resA` and the pair result
    at `Weave.resP` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Weave.resA (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Weave.resP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KValue.kernel_A m ρ c),
        (h c).2.1.trans (Cert.KernelIdeal.KValue.kernel_P m ρ c), (h c).2.2⟩)
      (Cert.KernelIdeal.Res.run_results m ρ)
  · refine (θ_run Cert.ReferenceIdeal.defs _ _).mono (fun r h c => ?_)
      (Cert.ReferenceIdeal.Value.run (F := Ideal) m' ρ')
    obtain ⟨g0, g1, g2, g3, g4, g5, g6, g7, g8, g9, g10, g11, g12, g13, g14, g15⟩ := hagree c
    refine ⟨(h c).1.trans ?_, (h c).2.1.trans ?_, (h c).2.2⟩
    · show Cert.ReferenceIdeal.Read.val_main_v18 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [g0, g1, g2, g4, g5, g6, g7, g8, g9]
      exact ref_A _ _ _ _ _ _ _ _ _
    · show Cert.ReferenceIdeal.Read.val_main_v57 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
      rw [g0, g1, g3, g10, g11, g12, g13, g14, g15]
      exact ref_P _ _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
